-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S1600000x3 : Shape := ⟨2, ![1600000, 3]⟩
abbrev S4x1x64 : Shape := ⟨3, ![4, 1, 64]⟩
abbrev S4x64 : Shape := ⟨2, ![4, 64]⟩
abbrev S4x64x64 : Shape := ⟨3, ![4, 64, 64]⟩
abbrev S4x64x2 : Shape := ⟨3, ![4, 64, 2]⟩
abbrev S4x2 : Shape := ⟨2, ![4, 2]⟩
abbrev S2x1600000 : Shape := ⟨2, ![2, 1600000]⟩
abbrev S50000 : Shape := ⟨1, ![50000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S4x1x64 : S_.BroadcastsInDim S4x1x64 (![] : Fin 0 → Fin S4x1x64.rank)
  reducesTo_S4x1x64_S_d0_1_2 : S4x1x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64x2 : S_.BroadcastsInDim S4x64x2 (![] : Fin 0 → Fin S4x64x2.rank)
  reducesTo_S4x64x2_S_d0_1_2 : S4x64x2.ReducesTo [0, 1, 2] S_
  bcast_S_S4x2 : S_.BroadcastsInDim S4x2 (![] : Fin 0 → Fin S4x2.rank)
  reducesTo_S4x2_S_d0_1 : S4x2.ReducesTo [0, 1] S_

variable [Facts]

def fn_part2 {F : FTy → Type} [FloatOps F] (main_arg7 : FVec F S4x2 .f32) (main_v33 : IVec S_ 1) : IVec S_ 1 :=
  let main_v34 : FVec F S4x2 .f32 := Host.absf main_arg7
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  main_v38

def fn_part1 {F : FTy → Type} [FloatOps F] (main_arg4 : FVec F S4x64x64 .f32) (main_arg5 : FVec F S4x64 .f32) (main_arg6 : FVec F S4x64x2 .f32) (main_arg7 : FVec F S4x2 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64x64 .f32 := Host.absf main_arg4
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x2 .f32 := Host.absf main_arg6
  let main_cst_10 : FVec F S_ .f32 := constant S_ .f32 0x7F800000#32
  let main_v30 : FVec F S4x64x2 .f32 := broadcastInDim S4x64x2 ![] bcast_S_S4x64x2 main_cst_10
  let main_v31 : IVec S4x64x2 1 := cmpf .olt main_v29 main_v30
  let main_c_11 : IVec S_ 1 := constantI S_ 1 1#1
  let main_v32 : IVec S_ 1 := (fun x v => Host.reduce IntOp.andi x v reducesTo_S4x64x2_S_d0_1_2 h_S_) main_v31 main_c_11
  let main_v33 : IVec S_ 1 := andi main_v28 main_v32
  fn_part2 (F := F) main_arg7 main_v33

def fn {F : FTy → Type} [FloatOps F] (main_arg0 : FVec F S50000x3 .f32) (main_arg1 : FVec F S1600000x3 .f32) (main_arg2 : FVec F S4x1x64 .f32) (main_arg3 : FVec F S4x64 .f32) (main_arg4 : FVec F S4x64x64 .f32) (main_arg5 : FVec F S4x64 .f32) (main_arg6 : FVec F S4x64x2 .f32) (main_arg7 : FVec F S4x2 .f32) (main_arg8 : IVec S2x1600000 32) (main_arg9 : IVec S50000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S1600000x3 .f32 := Host.absf main_arg1
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S4x1x64 .f32 := Host.absf main_arg2
  let main_cst_2 : FVec F S_ .f32 := constant S_ .f32 0x7F800000#32
  let main_v10 : FVec F S4x1x64 .f32 := broadcastInDim S4x1x64 ![] bcast_S_S4x1x64 main_cst_2
  let main_v11 : IVec S4x1x64 1 := cmpf .olt main_v9 main_v10
  let main_c_3 : IVec S_ 1 := constantI S_ 1 1#1
  let main_v12 : IVec S_ 1 := (fun x v => Host.reduce IntOp.andi x v reducesTo_S4x1x64_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_arg7 main_v13 main_v16
-- ==== Kernel.lean ====
abbrev S50000x3 : Shape := ⟨2, ![50000, 3]⟩
abbrev S1600000x3 : Shape := ⟨2, ![1600000, 3]⟩
abbrev S4x1x64 : Shape := ⟨3, ![4, 1, 64]⟩
abbrev S4x64 : Shape := ⟨2, ![4, 64]⟩
abbrev S4x64x64 : Shape := ⟨3, ![4, 64, 64]⟩
abbrev S4x64x2 : Shape := ⟨3, ![4, 64, 2]⟩
abbrev S4x2 : Shape := ⟨2, ![4, 2]⟩
abbrev S2x1600000 : Shape := ⟨2, ![2, 1600000]⟩
abbrev S50000 : Shape := ⟨1, ![50000]⟩
abbrev S1x1x64 : Shape := ⟨3, ![1, 1, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x2 : Shape := ⟨3, ![1, 64, 2]⟩
abbrev S64x2 : Shape := ⟨2, ![64, 2]⟩
abbrev S1x2 : Shape := ⟨2, ![1, 2]⟩
abbrev S2 : Shape := ⟨1, ![2]⟩
abbrev S3200x3 : Shape := ⟨2, ![3200, 3]⟩
abbrev S3200 : Shape := ⟨1, ![3200]⟩
abbrev S3200x1 : Shape := ⟨2, ![3200, 1]⟩
abbrev S3200x64 : Shape := ⟨2, ![3200, 64]⟩
abbrev S3200x2 : Shape := ⟨2, ![3200, 2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S16x3 : Shape := ⟨2, ![16, 3]⟩
abbrev S50000x1 : Shape := ⟨2, ![50000, 1]⟩

abbrev nBuf : Space → Nat
  | .hbm => 55
  | .vmem => 10
  | .smem => 0
  | _ => 0

abbrev bufTy : (tb : Table) → Fin (tcTables nBuf tb) → BufTy
  | .hbm, ⟨0, _⟩ => ⟨S50000x3, .f32⟩
  | .hbm, ⟨1, _⟩ => ⟨S1600000x3, .f32⟩
  | .hbm, ⟨2, _⟩ => ⟨S4x1x64, .f32⟩
  | .hbm, ⟨3, _⟩ => ⟨S4x64, .f32⟩
  | .hbm, ⟨4, _⟩ => ⟨S4x64x64, .f32⟩
  | .hbm, ⟨5, _⟩ => ⟨S4x64, .f32⟩
  | .hbm, ⟨6, _⟩ => ⟨S4x64x2, .f32⟩
  | .hbm, ⟨7, _⟩ => ⟨S4x2, .f32⟩
  | .hbm, ⟨8, _⟩ => ⟨S2x1600000, .i32⟩
  | .hbm, ⟨9, _⟩ => ⟨S50000, .i32⟩
  | .hbm, ⟨10, _⟩ => ⟨S1x1x64, .f32⟩
  | .hbm, ⟨11, _⟩ => ⟨S1x64, .f32⟩
  | .hbm, ⟨12, _⟩ => ⟨S1x64, .f32⟩
  | .hbm, ⟨13, _⟩ => ⟨S64, .f32⟩
  | .hbm, ⟨14, _⟩ => ⟨S1x64x64, .f32⟩
  | .hbm, ⟨15, _⟩ => ⟨S64x64, .f32⟩
  | .hbm, ⟨16, _⟩ => ⟨S1x64, .f32⟩
  | .hbm, ⟨17, _⟩ => ⟨S64, .f32⟩
  | .hbm, ⟨18, _⟩ => ⟨S1x64x2, .f32⟩
  | .hbm, ⟨19, _⟩ => ⟨S64x2, .f32⟩
  | .hbm, ⟨20, _⟩ => ⟨S1x2, .f32⟩
  | .hbm, ⟨21, _⟩ => ⟨S2, .f32⟩
  | .hbm, ⟨22, _⟩ => ⟨S1600000x3, .f32⟩
  | .hbm, ⟨23, _⟩ => ⟨S1x1600000, .i32⟩
  | .hbm, ⟨24, _⟩ => ⟨S1600000, .i32⟩
  | .hbm, ⟨25, _⟩ => ⟨S_, .f32⟩
  | .hbm, ⟨26, _⟩ => ⟨S50000x3, .f32⟩
  | .hbm, ⟨27, _⟩ => ⟨S1600000x1, .i32⟩
  | .hbm, ⟨28, _⟩ => ⟨S50000x3, .f32⟩
  | .hbm, ⟨29, _⟩ => ⟨S50000, .i32⟩
  | .hbm, ⟨30, _⟩ => ⟨S_, .i32⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S_, .i32⟩
  | .hbm, ⟨36, _⟩ => ⟨S50000, .i32⟩
  | .hbm, ⟨37, _⟩ => ⟨S50000, .i1⟩
  | .hbm, ⟨38, _⟩ => ⟨S50000, .i32⟩
  | .hbm, ⟨39, _⟩ => ⟨S50000, .i32⟩
  | .hbm, ⟨40, _⟩ => ⟨S_, .i32⟩
  | .hbm, ⟨41, _⟩ => ⟨S50000, .i32⟩
  | .hbm, ⟨42, _⟩ => ⟨S50000, .i1⟩
  | .hbm, ⟨43, _⟩ => ⟨S50000, .i1⟩
  | .hbm, ⟨44, _⟩ => ⟨S_, .i32⟩
  | .hbm, ⟨45, _⟩ => ⟨S50000, .i32⟩
  | .hbm, ⟨46, _⟩ => ⟨S50000, .i32⟩
  | .hbm, ⟨47, _⟩ => ⟨S50000, .i32⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S_, .f32⟩
  | .hbm, ⟨52, _⟩ => ⟨S16x3, .f32⟩
  | .hbm, ⟨53, _⟩ => ⟨S50000x1, .i32⟩
  | .hbm, ⟨54, _⟩ => ⟨S16x3, .f32⟩
  | .local _ .vmem, ⟨0, _⟩ => ⟨S3200x3, .f32⟩
  | .local _ .vmem, ⟨1, _⟩ => ⟨S3200x3, .f32⟩
  | .local _ .vmem, ⟨2, _⟩ => ⟨S1x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x2, .f32⟩
  | .local _ .vmem, ⟨7, _⟩ => ⟨S2, .f32⟩
  | .local _ .vmem, ⟨8, _⟩ => ⟨S3200x3, .f32⟩
  | .local _ .vmem, ⟨9, _⟩ => ⟨S3200x3, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_c_0 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4x1x64_S1x1x64_3_0_0 : S4x1x64.Slices ![3, 0, 0] S1x1x64
  shapeCasts_S1x1x64_S1x64 : S1x1x64.ShapeCasts S1x64
  slices_S4x64_S1x64_3_0 : S4x64.Slices ![3, 0] S1x64
  shapeCasts_S1x64_S64 : S1x64.ShapeCasts S64
  slices_S4x64x64_S1x64x64_3_0_0 : S4x64x64.Slices ![3, 0, 0] S1x64x64
  shapeCasts_S1x64x64_S64x64 : S1x64x64.ShapeCasts S64x64
  slices_S4x64x2_S1x64x2_3_0_0 : S4x64x2.Slices ![3, 0, 0] S1x64x2
  shapeCasts_S1x64x2_S64x2 : S1x64x2.ShapeCasts S64x2
  slices_S4x2_S1x2_3_0 : S4x2.Slices ![3, 0] S1x2
  shapeCasts_S1x2_S2 : S1x2.ShapeCasts S2
  inb_S3200x3_S3200x3_0_0 : ∀ a, (![0, 0] : Fin 2 → Nat) a + S3200x3.size a ≤ S3200x3.size a
  h_S3200x3 : 0 < S3200x3.numel
  reduces_S3200x3_S3200 : S3200x3.Reduces [1] S3200
  shapeCasts_S3200_S3200x1 : S3200.ShapeCasts S3200x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64_S64_0 : ∀ a, (![0] : Fin 1 → Nat) a + S64.size a ≤ S64.size a
  h_S64 : 0 < S64.numel
  shapeCasts_S64_S64 : S64.ShapeCasts S64
  broadcasts_S3200x1_S3200x64 : S3200x1.Broadcasts S3200x64
  broadcasts_S1x64_S3200x64 : S1x64.Broadcasts S3200x64
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S2 : S2.ShapeCasts S2
  shapeCasts_S2_S1x2 : S2.ShapeCasts S1x2
  broadcasts_S1x2_S3200x2 : S1x2.Broadcasts S3200x2
  slices_S3200x2_o0_0_S3200x1 : S3200x2.Slices ![0, 0] S3200x1
  slices_S3200x2_o0_1_S3200x1 : S3200x2.Slices ![0, 1] S3200x1
  broadcasts_S3200x1_S3200x3 : S3200x1.Broadcasts S3200x3
  slices_S2x1600000_S1x1600000_1_0 : S2x1600000.Slices ![1, 0] S1x1600000
  shapeCasts_S1x1600000_S1600000 : S1x1600000.ShapeCasts S1600000
  bcast_S_S50000x3 : S_.BroadcastsInDim S50000x3 (![] : Fin 0 → Fin S50000x3.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S_S16x3 : S_.BroadcastsInDim S16x3 (![] : Fin 0 → Fin S16x3.rank)
  bcast_S50000_S50000x1_0 : S50000.BroadcastsInDim S50000x1 (![0] : Fin 1 → Fin S50000x1.rank)
  dot_S3200x64_S64x64_S3200x64_1_0_0_1_n_n_wf : DotDims.WF S3200x64 S64x64 S3200x64 [1] [0] [0] [1] [] []
  dot_S3200x64_S64x2_S3200x2_1_0_0_1_n_n_wf : DotDims.WF S3200x64 S64x2 S3200x2 [1] [0] [0] [1] [] []
  scatter_S50000x3_S1600000x1_S1600000x3_1_0_0_1_wf : ScatterDims.WF S50000x3 S1600000x1 S1600000x3 [1] [0] [0] 1
  scatter_S16x3_S50000x1_S50000x3_1_0_0_1_wf : ScatterDims.WF S16x3 S50000x1 S50000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x3.size a ≤ S1600000x3.size a
  hwx0_0 : ∀ i : grid0.Coords, EltTy.bits .f32 = 32 ∨ (Rect.block (s := S1600000x3) S3200x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x3.size a ≤ S1600000x3.size a
  hwx0_7 : ∀ i : grid0.Coords, EltTy.bits .f32 = 32 ∨ (Rect.block (s := S1600000x3) S3200x3.size (cc0_transform_7 i) (hinb0_7 i)).WholeWords (EltTy.packing .f32)

variable [Facts₀]

def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x2_S3200x2_1_0_0_1_n_n : DotDims S3200x64 S64x2 S3200x2 where
  lhsContracting := [1]
  rhsContracting := [0]
  lhsNonContracting := [0]
  rhsNonContracting := [1]
  lhsBatch := []
  rhsBatch := []
  wf := dot_S3200x64_S64x2_S3200x2_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def scatter_S16x3_S50000x1_S50000x3_1_0_0_1 : ScatterDims S16x3 S50000x1 S50000x3 where
  updateWindowDims := [1]
  insertedWindowDims := [0]
  scatterDimsToOperandDims := [0]
  indexVectorDim := 1
  wf := scatter_S16x3_S50000x1_S50000x3_1_0_0_1_wf

abbrev win0_0 : Pipeline.Window sig grid0 :=
  Pipeline.Window.ofSpec (Memref.whole main_arg1) S3200x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S3200x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x3 : Shape := ⟨2, ![50000, 3]⟩
abbrev S1600000x3 : Shape := ⟨2, ![1600000, 3]⟩
abbrev S4x1x64 : Shape := ⟨3, ![4, 1, 64]⟩
abbrev S4x64 : Shape := ⟨2, ![4, 64]⟩
abbrev S4x64x64 : Shape := ⟨3, ![4, 64, 64]⟩
abbrev S4x64x2 : Shape := ⟨3, ![4, 64, 2]⟩
abbrev S4x2 : Shape := ⟨2, ![4, 2]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1x64 : Shape := ⟨3, ![1, 1, 64]⟩
abbrev S1x64 : Shape := ⟨2, ![1, 64]⟩
abbrev S1600000x64 : Shape := ⟨2, ![1600000, 64]⟩
abbrev S64 : Shape := ⟨1, ![64]⟩
abbrev S1x64x64 : Shape := ⟨3, ![1, 64, 64]⟩
abbrev S64x64 : Shape := ⟨2, ![64, 64]⟩
abbrev S1x64x2 : Shape := ⟨3, ![1, 64, 2]⟩
abbrev S64x2 : Shape := ⟨2, ![64, 2]⟩
abbrev S1600000x2 : Shape := ⟨2, ![1600000, 2]⟩
abbrev S1x2 : Shape := ⟨2, ![1, 2]⟩
abbrev S2 : Shape := ⟨1, ![2]⟩
abbrev S16x3 : Shape := ⟨2, ![16, 3]⟩
abbrev S50000x1 : Shape := ⟨2, ![50000, 1]⟩

abbrev nBuf : Space → Nat
  | .hbm => 221
  | .vmem => 0
  | .smem => 0
  | _ => 0

abbrev hbmTy0_0 (i : Nat) : BufTy := match i % 128 with
  | 0 => ⟨S50000x3, .f32⟩
  | 1 => ⟨S1600000x3, .f32⟩
  | 2 => ⟨S4x1x64, .f32⟩
  | 3 => ⟨S4x64, .f32⟩
  | 4 => ⟨S4x64x64, .f32⟩
  | 5 => ⟨S4x64, .f32⟩
  | 6 => ⟨S4x64x2, .f32⟩
  | 7 => ⟨S4x2, .f32⟩
  | 8 => ⟨S2x1600000, .i32⟩
  | 9 => ⟨S50000, .i32⟩
  | 10 => ⟨S1x1600000, .i32⟩
  | 11 => ⟨S1600000, .i32⟩
  | 12 => ⟨S1600000x3, .f32⟩
  | 13 => ⟨S_, .f32⟩
  | 14 => ⟨S1600000, .f32⟩
  | 15 => ⟨S1600000x1, .f32⟩
  | 16 => ⟨S1600000x1, .f32⟩
  | 17 => ⟨S_, .f32⟩
  | 18 => ⟨S1600000x1, .f32⟩
  | 19 => ⟨S1600000x1, .f32⟩
  | 20 => ⟨S1600000x1, .f32⟩
  | 21 => ⟨S_, .f32⟩
  | 22 => ⟨S50000x3, .f32⟩
  | 23 => ⟨S1x1x64, .f32⟩
  | 24 => ⟨S1x64, .f32⟩
  | 25 => ⟨S1600000x64, .f32⟩
  | 26 => ⟨S1x64, .f32⟩
  | 27 => ⟨S64, .f32⟩
  | 28 => ⟨S1x64, .f32⟩
  | 29 => ⟨S1600000x64, .f32⟩
  | 30 => ⟨S1600000x64, .f32⟩
  | 31 => ⟨S_, .f32⟩
  | 32 => ⟨S1600000x64, .f32⟩
  | 33 => ⟨S1600000x64, .f32⟩
  | 34 => ⟨S1x64x64, .f32⟩
  | 35 => ⟨S64x64, .f32⟩
  | 36 => ⟨S1600000x64, .f32⟩
  | 37 => ⟨S1x64, .f32⟩
  | 38 => ⟨S64, .f32⟩
  | 39 => ⟨S1x64, .f32⟩
  | 40 => ⟨S1600000x64, .f32⟩
  | 41 => ⟨S1600000x64, .f32⟩
  | 42 => ⟨S_, .f32⟩
  | 43 => ⟨S1600000x64, .f32⟩
  | 44 => ⟨S1600000x64, .f32⟩
  | 45 => ⟨S1x64x2, .f32⟩
  | 46 => ⟨S64x2, .f32⟩
  | 47 => ⟨S1600000x2, .f32⟩
  | 48 => ⟨S1x2, .f32⟩
  | 49 => ⟨S2, .f32⟩
  | 50 => ⟨S1x2, .f32⟩
  | 51 => ⟨S1600000x2, .f32⟩
  | 52 => ⟨S1600000x2, .f32⟩
  | 53 => ⟨S1600000x1, .f32⟩
  | 54 => ⟨S1600000x3, .f32⟩
  | 55 => ⟨S1600000x3, .f32⟩
  | 56 => ⟨S1600000x1, .f32⟩
  | 57 => ⟨S1600000x3, .f32⟩
  | 58 => ⟨S1600000x3, .f32⟩
  | 59 => ⟨S1600000x3, .f32⟩
  | 60 => ⟨S1600000x3, .f32⟩
  | 61 => ⟨S1600000x3, .f32⟩
  | 62 => ⟨S_, .f32⟩
  | 63 => ⟨S50000x3, .f32⟩
  | 64 => ⟨S1600000x1, .i32⟩
  | 65 => ⟨S50000x3, .f32⟩
  | 66 => ⟨S1x1x64, .f32⟩
  | 67 => ⟨S1x64, .f32⟩
  | 68 => ⟨S1600000x64, .f32⟩
  | 69 => ⟨S1x64, .f32⟩
  | 70 => ⟨S64, .f32⟩
  | 71 => ⟨S1x64, .f32⟩
  | 72 => ⟨S1600000x64, .f32⟩
  | 73 => ⟨S1600000x64, .f32⟩
  | 74 => ⟨S_, .f32⟩
  | 75 => ⟨S1600000x64, .f32⟩
  | 76 => ⟨S1600000x64, .f32⟩
  | 77 => ⟨S1x64x64, .f32⟩
  | 78 => ⟨S64x64, .f32⟩
  | 79 => ⟨S1600000x64, .f32⟩
  | 80 => ⟨S1x64, .f32⟩
  | 81 => ⟨S64, .f32⟩
  | 82 => ⟨S1x64, .f32⟩
  | 83 => ⟨S1600000x64, .f32⟩
  | 84 => ⟨S1600000x64, .f32⟩
  | 85 => ⟨S_, .f32⟩
  | 86 => ⟨S1600000x64, .f32⟩
  | 87 => ⟨S1600000x64, .f32⟩
  | 88 => ⟨S1x64x2, .f32⟩
  | 89 => ⟨S64x2, .f32⟩
  | 90 => ⟨S1600000x2, .f32⟩
  | 91 => ⟨S1x2, .f32⟩
  | 92 => ⟨S2, .f32⟩
  | 93 => ⟨S1x2, .f32⟩
  | 94 => ⟨S1600000x2, .f32⟩
  | 95 => ⟨S1600000x2, .f32⟩
  | 96 => ⟨S1600000x1, .f32⟩
  | 97 => ⟨S1600000x3, .f32⟩
  | 98 => ⟨S1600000x3, .f32⟩
  | 99 => ⟨S1600000x1, .f32⟩
  | 100 => ⟨S1600000x3, .f32⟩
  | 101 => ⟨S1600000x3, .f32⟩
  | 102 => ⟨S1600000x3, .f32⟩
  | 103 => ⟨S1600000x3, .f32⟩
  | 104 => ⟨S1600000x3, .f32⟩
  | 105 => ⟨S_, .f32⟩
  | 106 => ⟨S50000x3, .f32⟩
  | 107 => ⟨S1600000x1, .i32⟩
  | 108 => ⟨S50000x3, .f32⟩
  | 109 => ⟨S1x1x64, .f32⟩
  | 110 => ⟨S1x64, .f32⟩
  | 111 => ⟨S1600000x64, .f32⟩
  | 112 => ⟨S1x64, .f32⟩
  | 113 => ⟨S64, .f32⟩
  | 114 => ⟨S1x64, .f32⟩
  | 115 => ⟨S1600000x64, .f32⟩
  | 116 => ⟨S1600000x64, .f32⟩
  | 117 => ⟨S_, .f32⟩
  | 118 => ⟨S1600000x64, .f32⟩
  | 119 => ⟨S1600000x64, .f32⟩
  | 120 => ⟨S1x64x64, .f32⟩
  | 121 => ⟨S64x64, .f32⟩
  | 122 => ⟨S1600000x64, .f32⟩
  | 123 => ⟨S1x64, .f32⟩
  | 124 => ⟨S64, .f32⟩
  | 125 => ⟨S1x64, .f32⟩
  | 126 => ⟨S1600000x64, .f32⟩
  | 127 => ⟨S1600000x64, .f32⟩
  | _ => ⟨S50000x3, .f32⟩

abbrev hbmTy0_1 (i : Nat) : BufTy := match i % 128 with
  | 0 => ⟨S_, .f32⟩
  | 1 => ⟨S1600000x64, .f32⟩
  | 2 => ⟨S1600000x64, .f32⟩
  | 3 => ⟨S1x64x2, .f32⟩
  | 4 => ⟨S64x2, .f32⟩
  | 5 => ⟨S1600000x2, .f32⟩
  | 6 => ⟨S1x2, .f32⟩
  | 7 => ⟨S2, .f32⟩
  | 8 => ⟨S1x2, .f32⟩
  | 9 => ⟨S1600000x2, .f32⟩
  | 10 => ⟨S1600000x2, .f32⟩
  | 11 => ⟨S1600000x1, .f32⟩
  | 12 => ⟨S1600000x3, .f32⟩
  | 13 => ⟨S1600000x3, .f32⟩
  | 14 => ⟨S1600000x1, .f32⟩
  | 15 => ⟨S1600000x3, .f32⟩
  | 16 => ⟨S1600000x3, .f32⟩
  | 17 => ⟨S1600000x3, .f32⟩
  | 18 => ⟨S1600000x3, .f32⟩
  | 19 => ⟨S1600000x3, .f32⟩
  | 20 => ⟨S_, .f32⟩
  | 21 => ⟨S50000x3, .f32⟩
  | 22 => ⟨S1600000x1, .i32⟩
  | 23 => ⟨S50000x3, .f32⟩
  | 24 => ⟨S1x1x64, .f32⟩
  | 25 => ⟨S1x64, .f32⟩
  | 26 => ⟨S1600000x64, .f32⟩
  | 27 => ⟨S1x64, .f32⟩
  | 28 => ⟨S64, .f32⟩
  | 29 => ⟨S1x64, .f32⟩
  | 30 => ⟨S1600000x64, .f32⟩
  | 31 => ⟨S1600000x64, .f32⟩
  | 32 => ⟨S_, .f32⟩
  | 33 => ⟨S1600000x64, .f32⟩
  | 34 => ⟨S1600000x64, .f32⟩
  | 35 => ⟨S1x64x64, .f32⟩
  | 36 => ⟨S64x64, .f32⟩
  | 37 => ⟨S1600000x64, .f32⟩
  | 38 => ⟨S1x64, .f32⟩
  | 39 => ⟨S64, .f32⟩
  | 40 => ⟨S1x64, .f32⟩
  | 41 => ⟨S1600000x64, .f32⟩
  | 42 => ⟨S1600000x64, .f32⟩
  | 43 => ⟨S_, .f32⟩
  | 44 => ⟨S1600000x64, .f32⟩
  | 45 => ⟨S1600000x64, .f32⟩
  | 46 => ⟨S1x64x2, .f32⟩
  | 47 => ⟨S64x2, .f32⟩
  | 48 => ⟨S1600000x2, .f32⟩
  | 49 => ⟨S1x2, .f32⟩
  | 50 => ⟨S2, .f32⟩
  | 51 => ⟨S1x2, .f32⟩
  | 52 => ⟨S1600000x2, .f32⟩
  | 53 => ⟨S1600000x2, .f32⟩
  | 54 => ⟨S1600000x1, .f32⟩
  | 55 => ⟨S1600000x3, .f32⟩
  | 56 => ⟨S1600000x3, .f32⟩
  | 57 => ⟨S1600000x1, .f32⟩
  | 58 => ⟨S1600000x3, .f32⟩
  | 59 => ⟨S1600000x3, .f32⟩
  | 60 => ⟨S1600000x3, .f32⟩
  | 61 => ⟨S1600000x3, .f32⟩
  | 62 => ⟨S1600000x3, .f32⟩
  | 63 => ⟨S_, .f32⟩
  | 64 => ⟨S50000x3, .f32⟩
  | 65 => ⟨S1600000x1, .i32⟩
  | 66 => ⟨S50000x3, .f32⟩
  | 67 => ⟨S50000, .i32⟩
  | 68 => ⟨S_, .i32⟩
  | 69 => ⟨S_, .i32⟩
  | 70 => ⟨S50000, .i32⟩
  | 71 => ⟨S50000, .i32⟩
  | 72 => ⟨S50000, .i32⟩
  | 73 => ⟨S_, .i32⟩
  | 74 => ⟨S50000, .i32⟩
  | 75 => ⟨S50000, .i1⟩
  | 76 => ⟨S50000, .i32⟩
  | 77 => ⟨S50000, .i32⟩
  | 78 => ⟨S_, .i32⟩
  | 79 => ⟨S50000, .i32⟩
  | 80 => ⟨S50000, .i1⟩
  | 81 => ⟨S50000, .i1⟩
  | 82 => ⟨S_, .i32⟩
  | 83 => ⟨S50000, .i32⟩
  | 84 => ⟨S50000, .i32⟩
  | 85 => ⟨S50000, .i32⟩
  | 86 => ⟨S_, .i32⟩
  | 87 => ⟨S50000, .i32⟩
  | 88 => ⟨S50000, .i32⟩
  | 89 => ⟨S_, .f32⟩
  | 90 => ⟨S16x3, .f32⟩
  | 91 => ⟨S50000x1, .i32⟩
  | 92 => ⟨S16x3, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call3_cst : Ref sig .tc := ⟨.hbm, 74, rfl⟩
abbrev main_call3_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call4_cst : Ref sig .tc := ⟨.hbm, 85, rfl⟩
abbrev main_call4_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_2 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call5_cst : Ref sig .tc := ⟨.hbm, 117, rfl⟩
abbrev main_call5_v0 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call6_cst : Ref sig .tc := ⟨.hbm, 128, rfl⟩
abbrev main_call6_v0 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_3 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_call7_cst : Ref sig .tc := ⟨.hbm, 160, rfl⟩
abbrev main_call7_v0 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_call8_cst : Ref sig .tc := ⟨.hbm, 171, rfl⟩
abbrev main_call8_v0 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_4 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_c : Ref sig .tc := ⟨.hbm, 196, rfl⟩
abbrev main_call9_v0 : Ref sig .tc := ⟨.hbm, 197, rfl⟩
abbrev main_call9_v1 : Ref sig .tc := ⟨.hbm, 198, rfl⟩
abbrev main_call9_v2 : Ref sig .tc := ⟨.hbm, 199, rfl⟩
abbrev main_call9_v3 : Ref sig .tc := ⟨.hbm, 200, rfl⟩
abbrev main_call9_v4 : Ref sig .tc := ⟨.hbm, 201, rfl⟩
abbrev main_call9_v5 : Ref sig .tc := ⟨.hbm, 202, rfl⟩
abbrev main_call9_v6 : Ref sig .tc := ⟨.hbm, 203, rfl⟩
abbrev main_call9_v7 : Ref sig .tc := ⟨.hbm, 204, rfl⟩
abbrev main_call9_v8 : Ref sig .tc := ⟨.hbm, 205, rfl⟩
abbrev main_call9_c : Ref sig .tc := ⟨.hbm, 206, rfl⟩
abbrev main_call9_v9 : Ref sig .tc := ⟨.hbm, 207, rfl⟩
abbrev main_call9_v10 : Ref sig .tc := ⟨.hbm, 208, rfl⟩
abbrev main_call9_v11 : Ref sig .tc := ⟨.hbm, 209, rfl⟩
abbrev main_call9_c_0 : Ref sig .tc := ⟨.hbm, 210, rfl⟩
abbrev main_call9_v12 : Ref sig .tc := ⟨.hbm, 211, rfl⟩
abbrev main_call9_v13 : Ref sig .tc := ⟨.hbm, 212, rfl⟩
abbrev main_v160 : Ref sig .tc := ⟨.hbm, 213, rfl⟩
abbrev main_c_5 : Ref sig .tc := ⟨.hbm, 214, rfl⟩
abbrev main_v161 : Ref sig .tc := ⟨.hbm, 215, rfl⟩
abbrev main_v162 : Ref sig .tc := ⟨.hbm, 216, rfl⟩
abbrev main_cst_6 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  reducesTo_S1600000x3_S1600000_d1 : S1600000x3.ReducesTo [1] S1600000
  h_S_ : 0 < S_.numel
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S50000x3 : S_.BroadcastsInDim S50000x3 (![] : Fin 0 → Fin S50000x3.rank)
  slices_S4x1x64_S1x1x64_0_0_0 : S4x1x64.Slices ![0, 0, 0] S1x1x64
  shapeCasts_S1x1x64_S1x64 : S1x1x64.ShapeCasts S1x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S4x64x64_S1x64x64_0_0_0 : S4x64x64.Slices ![0, 0, 0] S1x64x64
  shapeCasts_S1x64x64_S64x64 : S1x64x64.ShapeCasts S64x64
  slices_S4x64x2_S1x64x2_0_0_0 : S4x64x2.Slices ![0, 0, 0] S1x64x2
  shapeCasts_S1x64x2_S64x2 : S1x64x2.ShapeCasts S64x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  slices_S1600000x2_S1600000x1_0_0 : S1600000x2.Slices ![0, 0] S1600000x1
  bcast_S1600000x1_S1600000x3_0_1 : S1600000x1.BroadcastsInDim S1600000x3 (![0, 1] : Fin 2 → Fin S1600000x3.rank)
  slices_S1600000x2_S1600000x1_0_1 : S1600000x2.Slices ![0, 1] S1600000x1
  slices_S4x1x64_S1x1x64_1_0_0 : S4x1x64.Slices ![1, 0, 0] S1x1x64
  slices_S4x64_S1x64_1_0 : S4x64.Slices ![1, 0] S1x64
  slices_S4x64x64_S1x64x64_1_0_0 : S4x64x64.Slices ![1, 0, 0] S1x64x64
  slices_S4x64x2_S1x64x2_1_0_0 : S4x64x2.Slices ![1, 0, 0] S1x64x2
  slices_S4x2_S1x2_1_0 : S4x2.Slices ![1, 0] S1x2
  slices_S4x1x64_S1x1x64_2_0_0 : S4x1x64.Slices ![2, 0, 0] S1x1x64
  slices_S4x64_S1x64_2_0 : S4x64.Slices ![2, 0] S1x64
  slices_S4x64x64_S1x64x64_2_0_0 : S4x64x64.Slices ![2, 0, 0] S1x64x64
  slices_S4x64x2_S1x64x2_2_0_0 : S4x64x2.Slices ![2, 0, 0] S1x64x2
  slices_S4x2_S1x2_2_0 : S4x2.Slices ![2, 0] S1x2
  slices_S4x1x64_S1x1x64_3_0_0 : S4x1x64.Slices ![3, 0, 0] S1x1x64
  slices_S4x64_S1x64_3_0 : S4x64.Slices ![3, 0] S1x64
  slices_S4x64x64_S1x64x64_3_0_0 : S4x64x64.Slices ![3, 0, 0] S1x64x64
  slices_S4x64x2_S1x64x2_3_0_0 : S4x64x2.Slices ![3, 0, 0] S1x64x2
  slices_S4x2_S1x2_3_0 : S4x2.Slices ![3, 0] S1x2
  bcast_S_S50000 : S_.BroadcastsInDim S50000 (![] : Fin 0 → Fin S50000.rank)
  bcast_S_S16x3 : S_.BroadcastsInDim S16x3 (![] : Fin 0 → Fin S16x3.rank)
  bcast_S50000_S50000x1_0 : S50000.BroadcastsInDim S50000x1 (![0] : Fin 1 → Fin S50000x1.rank)
  dot_S1600000x1_S1x64_S1600000x64_1_0_0_1_n_n_wf : DotDims.WF S1600000x1 S1x64 S1600000x64 [1] [0] [0] [1] [] []
  dot_S1600000x64_S64x64_S1600000x64_1_0_0_1_n_n_wf : DotDims.WF S1600000x64 S64x64 S1600000x64 [1] [0] [0] [1] [] []
  dot_S1600000x64_S64x2_S1600000x2_1_0_0_1_n_n_wf : DotDims.WF S1600000x64 S64x2 S1600000x2 [1] [0] [0] [1] [] []
  scatter_S50000x3_S1600000x1_S1600000x3_1_0_0_1_wf : ScatterDims.WF S50000x3 S1600000x1 S1600000x3 [1] [0] [0] 1
  scatter_S16x3_S50000x1_S50000x3_1_0_0_1_wf : ScatterDims.WF S16x3 S50000x1 S50000x3 [1] [0] [0] 1

variable [Facts₀]

def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def scatter_S16x3_S50000x1_S50000x3_1_0_0_1 : ScatterDims S16x3 S50000x1 S50000x3 where
  updateWindowDims := [1]
  insertedWindowDims := [0]
  scatterDimsToOperandDims := [0]
  indexVectorDim := 1
  wf := scatter_S16x3_S50000x1_S50000x3_1_0_0_1_wf

class Facts : Prop extends Facts₀ where

variable [Facts]
-- ==== Proof.Spec.lean ====
/-
  The radial edge network of one edge, as a function of that edge's three coordinates and of one layer's
  parameters, on the extended reals. Both programs compute, for every edge `e` and coordinate `d`,

    r      = sqrt (x 0 ^ 2 + x 1 ^ 2 + x 2 ^ 2)                     (the edge vector's length)
    h1 j   = max (r * w1[0, j] + b1[j]) 0                           (64 hidden units)
    h2 j   = max (sum over k of h1 k * w2[k, j] + b2[j]) 0          (64 hidden units)
    ab j   = sum over k of h2 k * w3[k, j] + b3[j]                  (two coefficients)
    msg d  = ab 0 * x d + (ab 1 * x d) * (r / (r + eps))

  with `eps` the f32 word 0x322BCC77 and the zero of the two rectifiers the f32 zero word, both kept as the
  words' values and never evaluated. The message of an edge depends on that edge's row only, so the function
  takes the row `x : Fin 3 → EReal`; an array of edges is read row by row.
-/
import Idealize.ShloMosaic.PureOps.Ideal
import Idealize.ShloMosaic.Lib.ValueIdx

noncomputable section

namespace Cert.EdgeMlp

open Idealize.ShloMosaic Idealize.ShloMosaic.ValueIdx

/-- The value of the f32 zero word (the rectifiers' floor). -/
abbrev zeroW : EReal := Ideal.ofBits .f32 0x00000000#32
/-- The value of the f32 word nearest 1e-8 (the denominator's offset). -/
abbrev epsW : EReal := Ideal.ofBits .f32 0x322BCC77#32

/-- The length of a row: the square root of the sum of its squares. -/
def radius (x : Fin 3 → EReal) : EReal := Ideal.sqrt (∑ k : Fin 3, x k * x k)

/-- The length over the length plus the offset. -/
def ratio (x : Fin 3 → EReal) : EReal := Ideal.div (radius x) (radius x + epsW)

/-- First hidden layer: the length times a weight row, plus a bias, rectified. -/
def hidden1 (x : Fin 3 → EReal) (w1 : (⟨2, ![1, 64]⟩ : Shape).Idx → EReal) (b1 : (⟨1, ![64]⟩ : Shape).Idx → EReal)
    (j : Fin 64) : EReal :=
  max (radius x * w1 (ix2 (0 : Fin 1) j) + b1 (ix1 j)) zeroW

/-- Second hidden layer: a 64 by 64 matrix applied to the first, plus a bias, rectified. -/
def hidden2 (x : Fin 3 → EReal) (w1 : (⟨2, ![1, 64]⟩ : Shape).Idx → EReal) (b1 : (⟨1, ![64]⟩ : Shape).Idx → EReal)
    (w2 : (⟨2, ![64, 64]⟩ : Shape).Idx → EReal) (b2 : (⟨1, ![64]⟩ : Shape).Idx → EReal) (j : Fin 64) : EReal :=
  max ((∑ k : Fin 64, hidden1 x w1 b1 k * w2 (ix2 k j)) + b2 (ix1 j)) zeroW

/-- The two output coefficients: a 64 by 2 matrix applied to the second hidden layer, plus a bias. -/
def coef (x : Fin 3 → EReal) (w1 : (⟨2, ![1, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 2]⟩ : Shape).Idx → EReal) (b3 : (⟨1, ![2]⟩ : Shape).Idx → EReal) (j : Fin 2) : EReal :=
  (∑ k : Fin 64, hidden2 x w1 b1 w2 b2 k * w3 (ix2 k j)) + b3 (ix1 j)

/-- The message of one edge at coordinate `d`. -/
def rowMsg (x : Fin 3 → EReal) (w1 : (⟨2, ![1, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 2]⟩ : Shape).Idx → EReal) (b3 : (⟨1, ![2]⟩ : Shape).Idx → EReal) (d : Fin 3) : EReal :=
  coef x w1 b1 w2 b2 w3 b3 (0 : Fin 2) * x d + coef x w1 b1 w2 b2 w3 b3 (1 : Fin 2) * x d * ratio x

/-- An array of `n` edges read row by row: entry `(e, d)` is the message of row `e` at `d`. -/
def msgRows {n : Nat} (ea : (⟨2, ![n, 3]⟩ : Shape).Idx → EReal) (w1 : (⟨2, ![1, 64]⟩ : Shape).Idx → EReal)
    (b1 : (⟨1, ![64]⟩ : Shape).Idx → EReal) (w2 : (⟨2, ![64, 64]⟩ : Shape).Idx → EReal) (b2 : (⟨1, ![64]⟩ : Shape).Idx → EReal)
    (w3 : (⟨2, ![64, 2]⟩ : Shape).Idx → EReal) (b3 : (⟨1, ![2]⟩ : Shape).Idx → EReal) :
    (⟨2, ![n, 3]⟩ : Shape).Idx → EReal :=
  fun i => rowMsg (fun k => ea (ix2 (i 0) k)) w1 b1 w2 b2 w3 b3 (i 1)

/-- At an index given by coordinates the array of messages is the row's message. -/
theorem msgRows_ix2 {n : Nat} (ea : (⟨2, ![n, 3]⟩ : Shape).Idx → EReal) (w1 : (⟨2, ![1, 64]⟩ : Shape).Idx → EReal)
    (b1 : (⟨1, ![64]⟩ : Shape).Idx → EReal) (w2 : (⟨2, ![64, 64]⟩ : Shape).Idx → EReal) (b2 : (⟨1, ![64]⟩ : Shape).Idx → EReal)
    (w3 : (⟨2, ![64, 2]⟩ : Shape).Idx → EReal) (b3 : (⟨1, ![2]⟩ : Shape).Idx → EReal) (e : Fin n) (d : Fin 3) :
    msgRows ea w1 b1 w2 b2 w3 b3 (ix2 e d) = rowMsg (fun k => ea (ix2 e k)) w1 b1 w2 b2 w3 b3 d := rfl

end Cert.EdgeMlp

end
-- ==== Proof.RefTerm.lean ====
/-
  The reference's result as ONE term of its argument arrays, at the extended reals, written with the host
  operations of the printed reference itself. Only the last of its four layers reaches the result (each layer
  overwrites the previous layer's node sums), so the term has three parts:

  * the last layer's parameters cut out of the stacked parameter arrays (`w1L … b3L`: row 3 of each, the unit
    axis dropped);
  * `layer3`: the messages of all edges under those parameters — the edge vector's length, the ratio
    length / (length + eps), two rectified affine layers, the two coefficients, and the combination
    a * x + (b * x) * ratio;
  * `pool`: the messages summed into their target nodes (the second row of the edge index), and the nodes
    summed into sixteen consecutive groups of 3125 (node number divided by 3125, rounded down, capped at 15).
-/
import proofs.«157294_j1838246003277_1_alg».proof.ReferenceIdeal
import proofs.«157294_j1838246003277_1_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-- Row 3 of the first layer's weights, as a [1, 64] array. -/
def w1L (a2 : FVec Ideal S4x1x64 .f32) : FVec Ideal S1x64 .f32 :=
  shapeCast S1x64 (extractStridedSlice S1x1x64 ![3, 0, 0] a2 slices_S4x1x64_S1x1x64_3_0_0) shapeCasts_S1x1x64_S1x64
/-- Row 3 of the first layer's biases, as a vector of 64. -/
def b1L (a3 : FVec Ideal S4x64 .f32) : FVec Ideal S64 .f32 :=
  shapeCast S64 (extractStridedSlice S1x64 ![3, 0] a3 slices_S4x64_S1x64_3_0) shapeCasts_S1x64_S64
/-- Matrix 3 of the second layer's weights, as a [64, 64] array. -/
def w2L (a4 : FVec Ideal S4x64x64 .f32) : FVec Ideal S64x64 .f32 :=
  shapeCast S64x64 (extractStridedSlice S1x64x64 ![3, 0, 0] a4 slices_S4x64x64_S1x64x64_3_0_0) shapeCasts_S1x64x64_S64x64
/-- Row 3 of the second layer's biases, as a vector of 64. -/
def b2L (a5 : FVec Ideal S4x64 .f32) : FVec Ideal S64 .f32 :=
  shapeCast S64 (extractStridedSlice S1x64 ![3, 0] a5 slices_S4x64_S1x64_3_0) shapeCasts_S1x64_S64
/-- Matrix 3 of the output layer's weights, as a [64, 2] array. -/
def w3L (a6 : FVec Ideal S4x64x2 .f32) : FVec Ideal S64x2 .f32 :=
  shapeCast S64x2 (extractStridedSlice S1x64x2 ![3, 0, 0] a6 slices_S4x64x2_S1x64x2_3_0_0) shapeCasts_S1x64x2_S64x2
/-- Row 3 of the output layer's biases, as a vector of 2. -/
def b3L (a7 : FVec Ideal S4x2 .f32) : FVec Ideal S2 .f32 :=
  shapeCast S2 (extractStridedSlice S1x2 ![3, 0] a7 slices_S4x2_S1x2_3_0) shapeCasts_S1x2_S2

/-- The length of every edge vector, as a column: the square root of the row sums of the squares. -/
def lengths (a1 : FVec Ideal S1600000x3 .f32) : FVec Ideal S1600000x1 .f32 :=
  Host.sqrt (broadcastInDim S1600000x1 ![0] bcast_S1600000_S1600000x1_0
    (Host.reduceAdd (mulf a1 a1) (constant (F := Ideal) S_ .f32 0x00000000#32) reducesTo_S1600000x3_S1600000_d1 h_S_))

/-- length / (length + eps), as a column. -/
def ratios (a1 : FVec Ideal S1600000x3 .f32) : FVec Ideal S1600000x1 .f32 :=
  Host.divf (lengths a1) (addf (lengths a1) (broadcastInDim S1600000x1 ![] bcast_S_S1600000x1 (constant (F := Ideal) S_ .f32 0x322BCC77#32)))

/-- The rectifier of the reference: the maximum with a zero array. -/
def relu64 (x : FVec Ideal S1600000x64 .f32) : FVec Ideal S1600000x64 .f32 :=
  maximumf x (broadcastInDim S1600000x64 ![] bcast_S_S1600000x64 (constant (F := Ideal) S_ .f32 0x00000000#32))

/-- The first hidden layer of every edge: lengths times the weight row (a product contracting a unit axis), plus
    the bias row, rectified. -/
def hid1 (a1 : FVec Ideal S1600000x3 .f32) (w1 : FVec Ideal S1x64 .f32) (b1 : FVec Ideal S64 .f32) : FVec Ideal S1600000x64 .f32 :=
  relu64 (addf (Host.dotGeneral dot_S1600000x1_S1x64_S1600000x64_1_0_0_1_n_n none (lengths a1) w1)
    (broadcastInDim S1600000x64 ![0, 1] bcast_S1x64_S1600000x64_0_1 (broadcastInDim S1x64 ![1] bcast_S64_S1x64_1 b1)))

/-- The second hidden layer: the first times the 64 by 64 matrix, plus the bias row, rectified. -/
def hid2 (h1 : FVec Ideal S1600000x64 .f32) (w2 : FVec Ideal S64x64 .f32) (b2 : FVec Ideal S64 .f32) : FVec Ideal S1600000x64 .f32 :=
  relu64 (addf (Host.dotGeneral dot_S1600000x64_S64x64_S1600000x64_1_0_0_1_n_n none h1 w2)
    (broadcastInDim S1600000x64 ![0, 1] bcast_S1x64_S1600000x64_0_1 (broadcastInDim S1x64 ![1] bcast_S64_S1x64_1 b2)))

/-- The two coefficients of every edge: the second hidden layer times the 64 by 2 matrix, plus the bias row. -/
def coefs (h2 : FVec Ideal S1600000x64 .f32) (w3 : FVec Ideal S64x2 .f32) (b3 : FVec Ideal S2 .f32) : FVec Ideal S1600000x2 .f32 :=
  addf (Host.dotGeneral dot_S1600000x64_S64x2_S1600000x2_1_0_0_1_n_n none h2 w3)
    (broadcastInDim S1600000x2 ![0, 1] bcast_S1x2_S1600000x2_0_1 (broadcastInDim S1x2 ![1] bcast_S2_S1x2_1 b3))

/-- The messages from the coefficients: a * x + (b * x) * ratio, the columns broadcast along the three coordinates. -/
def combine (a1 : FVec Ideal S1600000x3 .f32) (ab : FVec Ideal S1600000x2 .f32) (sc : FVec Ideal S1600000x1 .f32) : FVec Ideal S1600000x3 .f32 :=
  addf
    (mulf (broadcastInDim S1600000x3 ![0, 1] bcast_S1600000x1_S1600000x3_0_1
      (extractStridedSlice S1600000x1 ![0, 0] ab slices_S1600000x2_S1600000x1_0_0)) a1)
    (mulf (mulf (broadcastInDim S1600000x3 ![0, 1] bcast_S1600000x1_S1600000x3_0_1
      (extractStridedSlice S1600000x1 ![0, 1] ab slices_S1600000x2_S1600000x1_0_1)) a1)
      (broadcastInDim S1600000x3 ![0, 1] bcast_S1600000x1_S1600000x3_0_1 sc))

/-- The messages of all edges under one layer's parameters. -/
def layerMsg (a1 : FVec Ideal S1600000x3 .f32) (w1 : FVec Ideal S1x64 .f32) (b1 : FVec Ideal S64 .f32)
    (w2 : FVec Ideal S64x64 .f32) (b2 : FVec Ideal S64 .f32) (w3 : FVec Ideal S64x2 .f32) (b3 : FVec Ideal S2 .f32) :
    FVec Ideal S1600000x3 .f32 :=
  combine a1 (coefs (hid2 (hid1 a1 w1 b1) w2 b2) w3 b3) (ratios a1)

/-- The last layer's messages, from the stacked parameter arrays. -/
def layer3 (a1 : FVec Ideal S1600000x3 .f32) (a2 : FVec Ideal S4x1x64 .f32) (a3 : FVec Ideal S4x64 .f32)
    (a4 : FVec Ideal S4x64x64 .f32) (a5 : FVec Ideal S4x64 .f32) (a6 : FVec Ideal S4x64x2 .f32) (a7 : FVec Ideal S4x2 .f32) :
    FVec Ideal S1600000x3 .f32 :=
  layerMsg a1 (w1L a2) (b1L a3) (w2L a4) (b2L a5) (w3L a6) (b3L a7)

/-- The group of every node: the node number divided by 3125 rounded down (written as jax writes a floor division:
    the truncated quotient, lowered by one where the signs differ and the remainder is not zero), capped at 15. -/
def groups : IVec S50000 32 :=
  have n : IVec S50000 32 := iotaInDim S50000 32 0
  have d0 : IVec S_ 32 := id (constantI S_ 32 3125#32)
  have q : IVec S50000 32 := Host.divsi n (broadcastInDim S50000 ![] bcast_S_S50000 d0)
  have differ : IVec S50000 1 := cmpi .ne (signi n) (broadcastInDim S50000 ![] bcast_S_S50000 (signi d0))
  have inexact : IVec S50000 1 := cmpi .ne (Host.remsi n (broadcastInDim S50000 ![] bcast_S_S50000 d0))
    (broadcastInDim S50000 ![] bcast_S_S50000 (constantI S_ 32 0#32))
  have fl : IVec S50000 32 := select (andi differ inexact) (subi q (broadcastInDim S50000 ![] bcast_S_S50000 (constantI S_ 32 1#32))) q
  minsi fl (broadcastInDim S50000 ![] bcast_S_S50000 (constantI S_ 32 15#32))

/-- The target node of every edge: the second row of the edge index. -/
def targets (a8 : IVec S2x1600000 32) : IVec S1600000 32 :=
  shapeCast S1600000 (extractStridedSlice S1x1600000 ![1, 0] a8 slices_S2x1600000_S1x1600000_1_0) shapeCasts_S1x1600000_S1600000

/-- The messages summed into their target nodes, then the nodes summed into their groups. -/
def pool (msg : FVec Ideal S1600000x3 .f32) (a8 : IVec S2x1600000 32) : FVec Ideal S16x3 .f32 :=
  Host.scatterAdd scatter_S16x3_S50000x1_S50000x3_1_0_0_1
    (broadcastInDim S16x3 ![] bcast_S_S16x3 (constant (F := Ideal) S_ .f32 0x00000000#32))
    (broadcastInDim S50000x1 ![0] bcast_S50000_S50000x1_0 groups)
    (Host.scatterAdd scatter_S50000x3_S1600000x1_S1600000x3_1_0_0_1
      (broadcastInDim S50000x3 ![] bcast_S_S50000x3 (constant (F := Ideal) S_ .f32 0x00000000#32))
      (broadcastInDim S1600000x1 ![0] bcast_S1600000_S1600000x1_0 (targets a8))
      msg)

/-- The reference's result from its argument arrays. -/
def out (a1 : FVec Ideal S1600000x3 .f32) (a2 : FVec Ideal S4x1x64 .f32) (a3 : FVec Ideal S4x64 .f32)
    (a4 : FVec Ideal S4x64x64 .f32) (a5 : FVec Ideal S4x64 .f32) (a6 : FVec Ideal S4x64x2 .f32) (a7 : FVec Ideal S4x2 .f32)
    (a8 : IVec S2x1600000 32) : FVec Ideal S16x3 .f32 :=
  pool (layer3 a1 a2 a3 a4 a5 a6 a7) a8

end Cert.ReferenceIdeal.RefTerm

end
-- ==== Proof.KernelArray.lean ====
/-
  The idealized kernel's run, read as values. The one launch cuts the 1,600,000 edges into 500 blocks of 3200
  rows; grid point `t` reads rows 3200·t … 3200·t + 3199 of the edge array and the whole of the six parameter
  arrays (row 3 of each stacked parameter array, cut out by the host before the launch), and writes rows
  3200·t … 3200·t + 3199 of the message array. Because an edge's message depends on its own row only, the block a
  point writes is the same rows of ONE whole-array function — the edge network applied row by row — and the 500
  blocks tile the array, so after the launch the message array IS that function. The host then sums the messages
  into their target nodes and the nodes into their groups: the same two sums the reference ends with.

  The block equation itself (what the body stores is the edge network of the loaded rows) is taken here as a
  hypothesis `hB`, and supplied where the claims are assembled.
-/
import proofs.«157294_j1838246003277_1_alg».proof.Proof.Spec
import proofs.«157294_j1838246003277_1_alg».proof.Proof.RefTerm
import proofs.«157294_j1838246003277_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block equation: whatever the seven loaded blocks are, the body stores the edge network of the loaded rows. -/
def BlockEq : Prop :=
  ∀ (x0 : Vec Ideal S3200x3 .f32) (x1 : Vec Ideal S1x64 .f32) (x2 : Vec Ideal S64 .f32) (x3 : Vec Ideal S64x64 .f32)
    (x4 : Vec Ideal S64 .f32) (x5 : Vec Ideal S64x2 .f32) (x6 : Vec Ideal S2 .f32),
    out0_7 (F := Ideal) x0 x1 x2 x3 x4 x5 x6 = Cert.EdgeMlp.msgRows x0 x1 x2 x3 x4 x5 x6

/-! ## The parameter arrays the launch finds: row 3 of each stacked array -/

theorem V_w1 (c : Dev nD) : (V m c main_v1 : S1x64.Idx → EReal) = Cert.ReferenceIdeal.RefTerm.w1L (m ((c.tc : Thread nD τ).loc main_arg2)) := by
  show StableHlo.after hostOps0 (fun b => m (c, b)) (Proc.devRef .tc main_v1) = _
  after_results
  rfl
theorem V_b1 (c : Dev nD) : (V m c main_v3 : S64.Idx → EReal) = Cert.ReferenceIdeal.RefTerm.b1L (m ((c.tc : Thread nD τ).loc main_arg3)) := by
  show StableHlo.after hostOps0 (fun b => m (c, b)) (Proc.devRef .tc main_v3) = _
  after_results
  rfl
theorem V_w2 (c : Dev nD) : (V m c main_v5 : S64x64.Idx → EReal) = Cert.ReferenceIdeal.RefTerm.w2L (m ((c.tc : Thread nD τ).loc main_arg4)) := by
  show StableHlo.after hostOps0 (fun b => m (c, b)) (Proc.devRef .tc main_v5) = _
  after_results
  rfl
theorem V_b2 (c : Dev nD) : (V m c main_v7 : S64.Idx → EReal) = Cert.ReferenceIdeal.RefTerm.b2L (m ((c.tc : Thread nD τ).loc main_arg5)) := by
  show StableHlo.after hostOps0 (fun b => m (c, b)) (Proc.devRef .tc main_v7) = _
  after_results
  rfl
theorem V_w3 (c : Dev nD) : (V m c main_v9 : S64x2.Idx → EReal) = Cert.ReferenceIdeal.RefTerm.w3L (m ((c.tc : Thread nD τ).loc main_arg6)) := by
  show StableHlo.after hostOps0 (fun b => m (c, b)) (Proc.devRef .tc main_v9) = _
  after_results
  rfl
theorem V_b3 (c : Dev nD) : (V m c main_v11 : S2.Idx → EReal) = Cert.ReferenceIdeal.RefTerm.b3L (m ((c.tc : Thread nD τ).loc main_arg7)) := by
  show StableHlo.after hostOps0 (fun b => m (c, b)) (Proc.devRef .tc main_v11) = _
  after_results
  rfl

/-! ## Where each window's block sits -/

/-- The printed index maps over the 500 grid points: the edge window and the message window sit at block row `t`,
    column block 0; every parameter window sits at block 0 on every axis. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- A parameter window's block is the whole parameter array, at every point. -/
theorem iblk1 (c : Dev nD) (t : Fin cfg0.N) : (iblk m c 1 t : S1x64.Idx → EReal) = V m c main_v1 := by
  obtain ⟨-, -, -, -, e0, e1, -⟩ := idx_facts t
  funext y
  show V m c main_v1 (((cfg0.win 1).blk t).view.emb y) = V m c main_v1 y
  refine congrArg _ ?_
  funext a; apply Fin.ext
  match a with
  | ⟨0, _⟩ => show win0_1.index t (0 : Fin 2) * 1 + 1 * (y 0).val = (y 0).val; omega
  | ⟨1, _⟩ => show win0_1.index t (1 : Fin 2) * 64 + 1 * (y 1).val = (y 1).val; omega
theorem iblk2 (c : Dev nD) (t : Fin cfg0.N) : (iblk m c 2 t : S64.Idx → EReal) = V m c main_v3 := by
  obtain ⟨-, -, -, -, -, -, e0, -⟩ := idx_facts t
  funext y
  show V m c main_v3 (((cfg0.win 2).blk t).view.emb y) = V m c main_v3 y
  refine congrArg _ ?_
  funext a; apply Fin.ext
  match a with
  | ⟨0, _⟩ => show win0_2.index t (0 : Fin 1) * 64 + 1 * (y 0).val = (y 0).val; omega
theorem iblk3 (c : Dev nD) (t : Fin cfg0.N) : (iblk m c 3 t : S64x64.Idx → EReal) = V m c main_v5 := by
  obtain ⟨-, -, -, -, -, -, -, e0, e1, -⟩ := idx_facts t
  funext y
  show V m c main_v5 (((cfg0.win 3).blk t).view.emb y) = V m c main_v5 y
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem iblk4 (c : Dev nD) (t : Fin cfg0.N) : (iblk m c 4 t : S64.Idx → EReal) = V m c main_v7 := by
  obtain ⟨-, -, -, -, -, -, -, -, -, e0, -⟩ := idx_facts t
  funext y
  show V m c main_v7 (((cfg0.win 4).blk t).view.emb y) = V m c main_v7 y
  refine congrArg _ ?_
  funext a; apply Fin.ext
  match a with
  | ⟨0, _⟩ => show win0_4.index t (0 : Fin 1) * 64 + 1 * (y 0).val = (y 0).val; omega
theorem iblk5 (c : Dev nD) (t : Fin cfg0.N) : (iblk m c 5 t : S64x2.Idx → EReal) = V m c main_v9 := by
  obtain ⟨-, -, -, -, -, -, -, -, -, -, e0, e1, -⟩ := idx_facts t
  funext y
  show V m c main_v9 (((cfg0.win 5).blk t).view.emb y) = V m c main_v9 y
  refine congrArg _ ?_
  funext a; apply Fin.ext
  match a with
  | ⟨0, _⟩ => show win0_5.index t (0 : Fin 2) * 64 + 1 * (y 0).val = (y 0).val; omega
  | ⟨1, _⟩ => show win0_5.index t (1 : Fin 2) * 2 + 1 * (y 1).val = (y 1).val; omega
theorem iblk6 (c : Dev nD) (t : Fin cfg0.N) : (iblk m c 6 t : S2.Idx → EReal) = V m c main_v11 := by
  obtain ⟨-, -, -, -, -, -, -, -, -, -, -, -, e0⟩ := idx_facts t
  funext y
  show V m c main_v11 (((cfg0.win 6).blk t).view.emb y) = V m c main_v11 y
  refine congrArg _ ?_
  funext a; apply Fin.ext
  match a with
  | ⟨0, _⟩ => show win0_6.index t (0 : Fin 1) * 2 + 1 * (y 0).val = (y 0).val; omega

/-- Row `p` of the edge window's block at point `t` is row 3200·t + p of the edge array. -/
theorem iblk0_apply (c : Dev nD) (t : Fin cfg0.N) (p : Fin 3200) (k : Fin 3) (hp : t.val * 3200 + p.val < 1600000) :
    iblk m c 0 t (ix2 p k) = V m c main_arg1 (ix2 (⟨t.val * 3200 + p.val, hp⟩ : Fin 1600000) k) := by
  obtain ⟨e0, e1, -⟩ := idx_facts t
  show V m c main_arg1 (((cfg0.win 0).blk t).view.emb (ix2 p k)) = _
  refine congrArg _ ?_
  funext a; apply Fin.ext
  match a with
  | ⟨0, _⟩ => show win0_0.index t (0 : Fin 2) * 3200 + 1 * p.val = t.val * 3200 + p.val; omega
  | ⟨1, _⟩ => show win0_0.index t (1 : Fin 2) * 3 + 1 * k.val = k.val; omega

/-! ## The message array after the launch -/

/-- The edge network applied to every row of the edge array, under the parameters the launch finds. -/
def G (c : Dev nD) : S1600000x3.Idx → EReal :=
  Cert.EdgeMlp.msgRows (V m c main_arg1 : S1600000x3.Idx → EReal) (V m c main_v1 : S1x64.Idx → EReal) (V m c main_v3 : S64.Idx → EReal)
    (V m c main_v5 : S64x64.Idx → EReal) (V m c main_v7 : S64.Idx → EReal) (V m c main_v9 : S64x2.Idx → EReal) (V m c main_v11 : S2.Idx → EReal)

/-- What point `t` writes back is rows 3200·t … of `G`: the network of a row reads that row only. -/
theorem flushed_eq (hB : BlockEq) (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7, hB (iblk m c 0 t) (iblk m c 1 t) (iblk m c 2 t) (iblk m c 3 t) (iblk m c 4 t) (iblk m c 5 t) (iblk m c 6 t)]
  rw [iblk1, iblk2, iblk3, iblk4, iblk5, iblk6]
  obtain ⟨-, -, e0, e1, -⟩ := idx_facts t
  have ht : t.val < 500 := lt_of_lt_of_eq t.isLt N_0
  funext j
  obtain ⟨p, q, rfl⟩ : ∃ (p : Fin 3200) (q : Fin 3), j = ix2 p q := ⟨j 0, j 1, eq_ix2 j⟩
  have hp : t.val * 3200 + p.val < 1600000 := by have := p.isLt; omega
  have hemb : ((cfg0.win 7).blk t).view.emb (ix2 p q) = ix2 (⟨t.val * 3200 + p.val, hp⟩ : Fin 1600000) q := by
    funext a; apply Fin.ext
    match a with
    | ⟨0, _⟩ => show win0_7.index t (0 : Fin 2) * 3200 + 1 * p.val = t.val * 3200 + p.val; omega
    | ⟨1, _⟩ => show win0_7.index t (1 : Fin 2) * 3 + 1 * q.val = q.val; omega
  show Cert.EdgeMlp.msgRows (iblk m c 0 t) (V m c main_v1) (V m c main_v3) (V m c main_v5) (V m c main_v7) (V m c main_v9) (V m c main_v11) (ix2 p q)
    = G m c (((cfg0.win 7).blk t).view.emb (ix2 p q))
  rw [hemb]
  unfold G
  rw [Cert.EdgeMlp.msgRows_ix2, Cert.EdgeMlp.msgRows_ix2]
  exact congrArg (fun x => Cert.EdgeMlp.rowMsg x _ _ _ _ _ _ q) (funext fun k => iblk0_apply m c t p k hp)

/-- An index of the message array is in point `t`'s block iff each coordinate is in the block's range on its axis. -/
theorem mem_blk (t : Fin cfg0.N) (i : S1600000x3.Idx) :
    i ∈ ((cfg0.win 7).blk t).view.set ↔ ∀ a : Fin 2, win0_7.index t a * S3200x3.size a ≤ (i a).val ∧ (i a).val < win0_7.index t a * S3200x3.size a + S3200x3.size a := by
  show i ∈ ((View.whole main_v12).slice (win0_7.rect t)).set ↔ _
  rw [View.set_slice_whole, Rect.mem_set_unit]
  exact Iff.rfl

/-- The 500 blocks tile the message array: row `r` is in the block of point `r / 3200`. -/
theorem cover (i : S1600000x3.Idx) : ∃ t : Fin cfg0.N, (cfg0.win 7).flush t = true ∧ i ∈ ((cfg0.win 7).blk t).view.set := by
  have hi0 : (i 0).val < 1600000 := (i 0).isLt
  have hi1 : (i 1).val < 3 := (i 1).isLt
  have hN : cfg0.N = 500 := N_0
  have hlt : (i 0).val / 3200 < cfg0.N := by rw [hN]; omega
  obtain ⟨-, -, e2, e3, -⟩ := idx_facts ⟨(i 0).val / 3200, hlt⟩
  refine ⟨⟨(i 0).val / 3200, hlt⟩, flush0_7 _, ?_⟩
  rw [mem_blk]
  intro a
  match a with
  | ⟨0, _⟩ =>
    show win0_7.index ⟨(i 0).val / 3200, hlt⟩ (0 : Fin 2) * 3200 ≤ (i 0).val ∧ (i 0).val < win0_7.index ⟨(i 0).val / 3200, hlt⟩ (0 : Fin 2) * 3200 + 3200
    have e2' : win0_7.index ⟨(i 0).val / 3200, hlt⟩ (0 : Fin 2) = (i 0).val / 3200 := e2
    omega
  | ⟨1, _⟩ =>
    show win0_7.index ⟨(i 0).val / 3200, hlt⟩ (1 : Fin 2) * 3 ≤ (i 1).val ∧ (i 1).val < win0_7.index ⟨(i 0).val / 3200, hlt⟩ (1 : Fin 2) * 3 + 3
    omega

/-- After the launch the message array is the edge network of every row. -/
theorem final (hB : BlockEq) (c : Dev nD) : (dats m 0 c).arrAt 7 cfg0.N = G m c :=
  (dats m 0 c).arrAt_eq_of_cover 7 (G m c) (fun t _ => flushed_eq m hB c t) cover

/-! ## The host's two sums after the launch, and the run -/

/-- The parameters the launch finds are row 3 of the stacked arrays, and the edge array is as launched: `G` in terms of
    the program's arguments. -/
theorem G_eq (c : Dev nD) :
    G m c = Cert.EdgeMlp.msgRows (m ((c.tc : Thread nD τ).loc main_arg1) : S1600000x3.Idx → EReal)
      (Cert.ReferenceIdeal.RefTerm.w1L (m ((c.tc : Thread nD τ).loc main_arg2)))
      (Cert.ReferenceIdeal.RefTerm.b1L (m ((c.tc : Thread nD τ).loc main_arg3)))
      (Cert.ReferenceIdeal.RefTerm.w2L (m ((c.tc : Thread nD τ).loc main_arg4)))
      (Cert.ReferenceIdeal.RefTerm.b2L (m ((c.tc : Thread nD τ).loc main_arg5)))
      (Cert.ReferenceIdeal.RefTerm.w3L (m ((c.tc : Thread nD τ).loc main_arg6)))
      (Cert.ReferenceIdeal.RefTerm.b3L (m ((c.tc : Thread nD τ).loc main_arg7))) := by
  unfold G
  rw [V_w1, V_b1, V_w2, V_b2, V_w3, V_b3, V_main_arg1]

set_option maxHeartbeats 2000000 in
/-- The program's result: the host operations after the launch, applied to the message array the launch left and to the
    edge index, are the reference's two sums of the same arrays. -/
theorem tail_eq (hB : BlockEq) (c : Dev nD) :
    (Pipeline.afterTail₀ cfgs (dats m) 0 (V0 m) [hostOps1, hostOps1_1, hostOps1_2] c main_v24 : S16x3.Idx → EReal)
      = Cert.ReferenceIdeal.RefTerm.pool (G m c) (m ((c.tc : Thread nD τ).loc main_arg8)) := by
  unfold Pipeline.afterTail₀
  have h12 : (Pipeline.withArrays (cfgs 0).spec c (V0 m c) (fun w => (dats m 0 c).arrAt w (cfgs 0).N) (Proc.devRef .tc main_v12) : S1600000x3.Idx → EReal) = G m c :=
    (Pipeline.withArrays_arr spec0 launch0.win.arr_inj c _ _ 7).trans (final m hB c)
  have h8 : (Pipeline.withArrays (cfgs 0).spec c (V0 m c) (fun w => (dats m 0 c).arrAt w (cfgs 0).N) (Proc.devRef .tc main_arg8) : S2x1600000.Idx → BitVec 32) = m ((c.tc : Thread nD τ).loc main_arg8) :=
    (Pipeline.withArrays_of_ne _ c (V0 m c) _ main_arg8 (by exact (by decide : ∀ w, Pipeline.arrRef spec0 w ≠ main_arg8))).trans (V_main_arg8 m c)
  generalize Pipeline.withArrays (cfgs 0).spec c (V0 m c) (fun w => (dats m 0 c).arrAt w (cfgs 0).N) = W at h12 h8 ⊢
  simp only [hostOps1, hostOps1_1, hostOps1_2, List.flatten_cons, List.flatten_nil, List.append_nil, List.cons_append, List.nil_append]
  after_results_simp
  rw [h12, h8]
  unfold Cert.ReferenceIdeal.RefTerm.pool Cert.ReferenceIdeal.RefTerm.groups Cert.ReferenceIdeal.RefTerm.targets
  rfl

/-- Every weakly fair execution of the idealized kernel program terminates with its result at the reference's two sums of
    the edge network's messages, and its argument arrays unchanged. -/
theorem run (hB : BlockEq) : θ_run (defs (F := Ideal)) (onTc (τ := τ) (main (F := Ideal))) ⟨m, fun _ => 0, ρ⟩ fun r => ∀ c : Dev nD,
      r.2.mem ((c.tc : Thread nD τ).loc main_v24)
          = Cert.ReferenceIdeal.RefTerm.pool (Cert.EdgeMlp.msgRows (m ((c.tc : Thread nD τ).loc main_arg1) : S1600000x3.Idx → EReal)
              (Cert.ReferenceIdeal.RefTerm.w1L (m ((c.tc : Thread nD τ).loc main_arg2)))
              (Cert.ReferenceIdeal.RefTerm.b1L (m ((c.tc : Thread nD τ).loc main_arg3)))
              (Cert.ReferenceIdeal.RefTerm.w2L (m ((c.tc : Thread nD τ).loc main_arg4)))
              (Cert.ReferenceIdeal.RefTerm.b2L (m ((c.tc : Thread nD τ).loc main_arg5)))
              (Cert.ReferenceIdeal.RefTerm.w3L (m ((c.tc : Thread nD τ).loc main_arg6)))
              (Cert.ReferenceIdeal.RefTerm.b3L (m ((c.tc : Thread nD τ).loc main_arg7))))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(((h c).2 main_v24 (Pipeline.mem_restRefs_of main_v24 (by decide) (by decide))).trans
        ((tail_eq m hB c).trans (congrArg (fun g => Cert.ReferenceIdeal.RefTerm.pool g (m ((c.tc : Thread nD τ).loc main_arg8))) (G_eq m c)))),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.KernelValue

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KernelBlock.lean ====
/-
  What the kernel body stores in one output block of 3200 edges, read index by index.

  For an edge `p` and a coordinate `q` the stored value is

    ab 0 * x q + (ab 1 * x q) * (r / (r + eps)),

  where `x` is row `p` of the block of edge vectors, `r = sqrt (x 0 ^ 2 + x 1 ^ 2 + x 2 ^ 2)`,
  `h1 j = max (r * w1[0, j] + b1[j]) 0`, `h2 j = max (sum over k of h1 k * w2[k, j] + b2[j]) 0` and
  `ab j = sum over k of h2 k * w3[k, j] + b3[j]`. Each operation of the body is read at an index: a sum over the three
  lanes of a row, a vector cast to a column, a column or a row broadcast over a matrix, a cut of one column out of
  two, and a matrix product into a zero accumulator as a sum over the 64 contracted positions. The narrowing of a
  product's operands is the identity on the extended reals. Both sides are then the same expression; no finiteness is
  used.
-/
import proofs.«157294_j1838246003277_1_alg».proof.Proof.Spec
import proofs.«157294_j1838246003277_1_alg».proof.Proof.Gen.KernelIdeal.Frame
import proofs.«157294_j1838246003277_1_alg».proof.Proof.LibColumnForms
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Cert.KernelIdeal.Gen

namespace Cert.KernelIdeal.BlockValue
open Cert.KernelIdeal

/-- The offset of a whole rank-2 block is zero on both axes. -/
theorem zeroOff2 : (![0, 0] : Fin 2 → ℕ) = fun _ => 0 := funext fun a => by fin_cases a <;> rfl
/-- The offset of a whole rank-1 block is zero. -/
theorem zeroOff1 : (![0] : Fin 1 → ℕ) = fun _ => 0 := funext fun a => by fin_cases a <;> rfl

/-- A sum along the lane axis of a 3200 by 3 array, read at row `p`, is the sum over the three lanes of that row:
    the reduced index `p` with lane `k` put back is `(p, k)`. -/
theorem laneSum_apply (v : FVec Ideal S3200x3 .f32) (hacc : (0x00000000#32 : BitVec 32) = 0x00000000#32) (p : Fin 3200) :
    multiReduction .add [1] S3200 v 0x00000000#32 reduces_S3200x3_S3200 (.inl rfl) hacc (ix1 p)
      = ∑ k : Fin 3, v (ix2 p k) := by
  refine (Ideal.multiReduction_add_single v _ reduces_S3200x3_S3200 (.inl rfl) hacc (ix1 p)).trans ?_
  refine Finset.sum_congr rfl fun k _ => congrArg v ?_
  funext a
  match a with
  | ⟨0, _⟩ => rfl
  | ⟨1, _⟩ => rfl

/-- A 3200 by 64 matrix times a 64 by 64 matrix into the zero accumulator, read at `(p, j)`: the sum over the 64
    contracted positions `k` of the left operand at `(p, k)` times the right at `(k, j)`. The contraction index is
    re-indexed by its one coordinate. -/
theorem matmul64_apply (lhs : FVec Ideal S3200x64 .bf16) (rhs : FVec Ideal S64x64 .bf16) (p : Fin 3200) (j : Fin 64) :
    matmul dot_S3200x64_S64x64_S3200x64_1_0_0_1_n_n none lhs rhs (constant S3200x64 .f32 0x00000000#32) (ix2 p j)
      = ∑ k : Fin 64, lhs (ix2 p k) * rhs (ix2 k j) := by
  refine (Ideal.matmul_constant_zero_apply dot_S3200x64_S64x64_S3200x64_1_0_0_1_n_n none lhs rhs (ix2 p j)).trans ?_
  rw [← Equiv.sum_comp (contrEquiv1 dot_S3200x64_S64x64_S3200x64_1_0_0_1_n_n 64 rfl rfl).symm]
  refine Finset.sum_congr rfl fun k _ => ?_
  have hl : dot_S3200x64_S64x64_S3200x64_1_0_0_1_n_n.lhsIdx (ix2 p j)
      ((contrEquiv1 dot_S3200x64_S64x64_S3200x64_1_0_0_1_n_n 64 rfl rfl).symm k) = ix2 p k := by
    funext a
    refine Fin.ext ?_
    match a with
    | ⟨0, _⟩ => simp [DotDims.lhsIdx, dot_S3200x64_S64x64_S3200x64_1_0_0_1_n_n]; rfl
    | ⟨1, _⟩ =>
      exact (DotDims.lhsIdx_val_of_single (d := dot_S3200x64_S64x64_S3200x64_1_0_0_1_n_n) (cl := 1) rfl _ _).trans
        (contrEquiv1_symm_val dot_S3200x64_S64x64_S3200x64_1_0_0_1_n_n 64 rfl rfl k)
  have hr : dot_S3200x64_S64x64_S3200x64_1_0_0_1_n_n.rhsIdx (ix2 p j)
      ((contrEquiv1 dot_S3200x64_S64x64_S3200x64_1_0_0_1_n_n 64 rfl rfl).symm k) = ix2 k j := by
    funext a
    refine Fin.ext ?_
    match a with
    | ⟨0, _⟩ =>
      exact (DotDims.rhsIdx_val_of_single (d := dot_S3200x64_S64x64_S3200x64_1_0_0_1_n_n) (cr := 0) rfl _ _).trans
        (contrEquiv1_symm_val dot_S3200x64_S64x64_S3200x64_1_0_0_1_n_n 64 rfl rfl k)
    | ⟨1, _⟩ => simp [DotDims.rhsIdx, dot_S3200x64_S64x64_S3200x64_1_0_0_1_n_n]; rfl
  rw [hl, hr]

/-- The same for a 64 by 2 right operand: the entry `(p, j)` is the sum over `k` of left `(p, k)` times right `(k, j)`. -/
theorem matmul2_apply (lhs : FVec Ideal S3200x64 .bf16) (rhs : FVec Ideal S64x2 .bf16) (p : Fin 3200) (j : Fin 2) :
    matmul dot_S3200x64_S64x2_S3200x2_1_0_0_1_n_n none lhs rhs (constant S3200x2 .f32 0x00000000#32) (ix2 p j)
      = ∑ k : Fin 64, lhs (ix2 p k) * rhs (ix2 k j) := by
  refine (Ideal.matmul_constant_zero_apply dot_S3200x64_S64x2_S3200x2_1_0_0_1_n_n none lhs rhs (ix2 p j)).trans ?_
  rw [← Equiv.sum_comp (contrEquiv1 dot_S3200x64_S64x2_S3200x2_1_0_0_1_n_n 64 rfl rfl).symm]
  refine Finset.sum_congr rfl fun k _ => ?_
  have hl : dot_S3200x64_S64x2_S3200x2_1_0_0_1_n_n.lhsIdx (ix2 p j)
      ((contrEquiv1 dot_S3200x64_S64x2_S3200x2_1_0_0_1_n_n 64 rfl rfl).symm k) = ix2 p k := by
    funext a
    refine Fin.ext ?_
    match a with
    | ⟨0, _⟩ => simp [DotDims.lhsIdx, dot_S3200x64_S64x2_S3200x2_1_0_0_1_n_n]; rfl
    | ⟨1, _⟩ =>
      exact (DotDims.lhsIdx_val_of_single (d := dot_S3200x64_S64x2_S3200x2_1_0_0_1_n_n) (cl := 1) rfl _ _).trans
        (contrEquiv1_symm_val dot_S3200x64_S64x2_S3200x2_1_0_0_1_n_n 64 rfl rfl k)
  have hr : dot_S3200x64_S64x2_S3200x2_1_0_0_1_n_n.rhsIdx (ix2 p j)
      ((contrEquiv1 dot_S3200x64_S64x2_S3200x2_1_0_0_1_n_n 64 rfl rfl).symm k) = ix2 k j := by
    funext a
    refine Fin.ext ?_
    match a with
    | ⟨0, _⟩ =>
      exact (DotDims.rhsIdx_val_of_single (d := dot_S3200x64_S64x2_S3200x2_1_0_0_1_n_n) (cr := 0) rfl _ _).trans
        (contrEquiv1_symm_val dot_S3200x64_S64x2_S3200x2_1_0_0_1_n_n 64 rfl rfl k)
    | ⟨1, _⟩ => simp [DotDims.rhsIdx, dot_S3200x64_S64x2_S3200x2_1_0_0_1_n_n]; rfl
  rw [hl, hr]

/-- The column of lengths at row `p`: the square root of the sum of the squares of the row's three entries. -/
theorem pay2_apply (x0 : Vec Ideal S3200x3 .f32) (p : Fin 3200) :
    k0_pay2 x0 (ix2 p (0 : Fin 1)) = Cert.EdgeMlp.radius (fun k => x0 (ix2 p k)) := by
  unfold k0_pay2 Cert.EdgeMlp.radius
  show Ideal.sqrt (shapeCast S3200x1 (multiReduction (F := Ideal) .add [1] S3200 (mulf x0 x0) 0x00000000#32 reduces_S3200x3_S3200 (.inl rfl) rfl)
      shapeCasts_S3200_S3200x1 (ix2 p (0 : Fin 1))) = _
  rw [ValueLayout.shapeCast_a_a1_apply, laneSum_apply]
  rfl

/-- The column of ratios at row `p`: the length over the length plus the offset word's value. -/
theorem pay3_apply (x0 : Vec Ideal S3200x3 .f32) (p : Fin 3200) :
    k0_pay3 x0 (ix2 p (0 : Fin 1)) = Cert.EdgeMlp.ratio (fun k => x0 (ix2 p k)) := by
  unfold k0_pay3 Cert.EdgeMlp.ratio
  show Ideal.div (k0_pay2 x0 (ix2 p (0 : Fin 1))) (k0_pay2 x0 (ix2 p (0 : Fin 1)) + Ideal.ofBits .f32 0x322BCC77#32) = _
  rw [pay2_apply]

/-- The first hidden layer as an array: the lengths' column broadcast over 64 lanes, times the weight row broadcast
    over the rows, plus the bias row, rectified at the zero word's value. -/
def firstHidden (x0 : Vec Ideal S3200x3 .f32) (x1 : Vec Ideal S1x64 .f32) (x2 : Vec Ideal S64 .f32) : FVec Ideal S3200x64 .f32 :=
  maximumf (addf (mulf (broadcastTo S3200x64 (k0_pay2 x0) broadcasts_S3200x1_S3200x64)
      (broadcastTo S3200x64 (shapeCast S1x64 x1 shapeCasts_S1x64_S1x64) broadcasts_S1x64_S3200x64))
    (broadcastTo S3200x64 (shapeCast S1x64 (shapeCast S64 x2 shapeCasts_S64_S64) shapeCasts_S64_S1x64) broadcasts_S1x64_S3200x64))
    (broadcast S3200x64 (Scalar.ofBits .f32 0x00000000#32))

/-- The second hidden layer as an array: the first times the 64 by 64 weights, plus the bias row, rectified. -/
def secondHidden (x0 : Vec Ideal S3200x3 .f32) (x1 : Vec Ideal S1x64 .f32) (x2 : Vec Ideal S64 .f32)
    (x3 : Vec Ideal S64x64 .f32) (x4 : Vec Ideal S64 .f32) : FVec Ideal S3200x64 .f32 :=
  maximumf (addf (matmul dot_S3200x64_S64x64_S3200x64_1_0_0_1_n_n none (truncf .bf16 (firstHidden x0 x1 x2) bitsLt_bf16_f32)
        (truncf .bf16 (shapeCast S64x64 x3 shapeCasts_S64x64_S64x64) bitsLt_bf16_f32) (constant S3200x64 .f32 0x00000000#32))
      (broadcastTo S3200x64 (shapeCast S1x64 (shapeCast S64 x4 shapeCasts_S64_S64) shapeCasts_S64_S1x64) broadcasts_S1x64_S3200x64))
    (broadcast S3200x64 (Scalar.ofBits .f32 0x00000000#32))

/-- The coefficients' array is the second hidden layer times the 64 by 2 weights, plus the bias row: the body's
    operations in their order, with the two hidden layers named. -/
theorem pay4_eq (x0 : Vec Ideal S3200x3 .f32) (x1 : Vec Ideal S1x64 .f32) (x2 : Vec Ideal S64 .f32)
    (x3 : Vec Ideal S64x64 .f32) (x4 : Vec Ideal S64 .f32) (x5 : Vec Ideal S64x2 .f32) (x6 : Vec Ideal S2 .f32) :
    k0_pay4 x0 x1 x2 x3 x4 x5 x6
      = addf (matmul dot_S3200x64_S64x2_S3200x2_1_0_0_1_n_n none (truncf .bf16 (secondHidden x0 x1 x2 x3 x4) bitsLt_bf16_f32)
          (truncf .bf16 (shapeCast S64x2 x5 shapeCasts_S64x2_S64x2) bitsLt_bf16_f32) (constant S3200x2 .f32 0x00000000#32))
        (broadcastTo S3200x2 (shapeCast S1x2 (shapeCast S2 x6 shapeCasts_S2_S2) shapeCasts_S2_S1x2) broadcasts_S1x2_S3200x2) := rfl

/-- The first hidden layer at `(p, j)` is the row's first hidden unit `j`. -/
theorem firstHidden_apply (x0 : Vec Ideal S3200x3 .f32) (x1 : Vec Ideal S1x64 .f32) (x2 : Vec Ideal S64 .f32) (p : Fin 3200) (j : Fin 64) :
    firstHidden x0 x1 x2 (ix2 p j) = Cert.EdgeMlp.hidden1 (fun k => x0 (ix2 p k)) x1 x2 j := by
  unfold firstHidden Cert.EdgeMlp.hidden1
  rw [maximumf_apply, addf_apply, mulf_apply, broadcast_apply,
    ValueLayout.broadcastTo_a1_ab_apply, broadcastTo_1b_ab_apply, broadcastTo_1b_ab_apply,
    shapeCast_self, shapeCast_self, shapeCast_a_1a_apply, pay2_apply]
  rfl

/-- The second hidden layer at `(p, j)` is the row's second hidden unit `j`: the product is a sum over the 64 first
    hidden units, each read by the lemma above. -/
theorem secondHidden_apply (x0 : Vec Ideal S3200x3 .f32) (x1 : Vec Ideal S1x64 .f32) (x2 : Vec Ideal S64 .f32)
    (x3 : Vec Ideal S64x64 .f32) (x4 : Vec Ideal S64 .f32) (p : Fin 3200) (j : Fin 64) :
    secondHidden x0 x1 x2 x3 x4 (ix2 p j) = Cert.EdgeMlp.hidden2 (fun k => x0 (ix2 p k)) x1 x2 x3 x4 j := by
  unfold secondHidden Cert.EdgeMlp.hidden2
  rw [maximumf_apply, addf_apply, matmul64_apply, broadcast_apply, broadcastTo_1b_ab_apply,
    shapeCast_self x4 shapeCasts_S64_S64, shapeCast_a_1a_apply]
  refine congrArg (fun s => max (s + x4 (ix1 j)) Cert.EdgeMlp.zeroW) (Finset.sum_congr rfl fun k _ => ?_)
  rw [truncf_apply, truncf_apply, shapeCast_self x3 shapeCasts_S64x64_S64x64, firstHidden_apply]

/-- The coefficients' array at `(p, j)` is the row's coefficient `j`. -/
theorem pay4_apply (x0 : Vec Ideal S3200x3 .f32) (x1 : Vec Ideal S1x64 .f32) (x2 : Vec Ideal S64 .f32)
    (x3 : Vec Ideal S64x64 .f32) (x4 : Vec Ideal S64 .f32) (x5 : Vec Ideal S64x2 .f32) (x6 : Vec Ideal S2 .f32)
    (p : Fin 3200) (j : Fin 2) :
    k0_pay4 x0 x1 x2 x3 x4 x5 x6 (ix2 p j) = Cert.EdgeMlp.coef (fun k => x0 (ix2 p k)) x1 x2 x3 x4 x5 x6 j := by
  rw [pay4_eq]
  unfold Cert.EdgeMlp.coef
  rw [addf_apply, matmul2_apply, broadcastTo_1b_ab_apply, shapeCast_self x6 shapeCasts_S2_S2, shapeCast_a_1a_apply]
  refine congrArg (fun s => s + x6 (ix1 j)) (Finset.sum_congr rfl fun k _ => ?_)
  rw [truncf_apply, truncf_apply, shapeCast_self x5 shapeCasts_S64x2_S64x2, secondHidden_apply]

/-- The stored array at `(p, q)`, from any ratio column `v7` and coefficient array `v41`: the first coefficient's
    column (cut at column 0) and the second's (cut at column 1) are broadcast over the three coordinates. -/
theorem pay1_apply (x0 : Vec Ideal S3200x3 .f32) (v7 : FVec Ideal S3200x1 .f32) (v41 : FVec Ideal S3200x2 .f32)
    (p : Fin 3200) (q : Fin 3) :
    k0_pay1 x0 v7 v41 (ix2 p q)
      = v41 (ix2 p (0 : Fin 2)) * x0 (ix2 p q) + v41 (ix2 p (1 : Fin 2)) * x0 (ix2 p q) * v7 (ix2 p (0 : Fin 1)) := by
  unfold k0_pay1
  show broadcastTo S3200x3 (extractStridedSlice S3200x1 ![0, 0] v41 slices_S3200x2_o0_0_S3200x1) broadcasts_S3200x1_S3200x3 (ix2 p q)
        * x0 (ix2 p q)
      + broadcastTo S3200x3 (extractStridedSlice S3200x1 ![0, 1] v41 slices_S3200x2_o0_1_S3200x1) broadcasts_S3200x1_S3200x3 (ix2 p q)
        * x0 (ix2 p q) * broadcastTo S3200x3 v7 broadcasts_S3200x1_S3200x3 (ix2 p q) = _
  rw [ValueLayout.broadcastTo_a1_ab_apply, ValueLayout.broadcastTo_a1_ab_apply, ValueLayout.broadcastTo_a1_ab_apply,
    slice2_axis1_apply 0 v41 slices_S3200x2_o0_0_S3200x1 p (0 : Fin 1) (0 : Fin 2) rfl,
    slice2_axis1_apply 1 v41 slices_S3200x2_o0_1_S3200x1 p (0 : Fin 1) (1 : Fin 2) rfl]

/-- The block the body stores is the array of the rows' messages. Every access of the body is to a whole buffer at
    offset zero, so the stored block is the payload of the loaded blocks; at `(p, q)` both sides are the row's message. -/
theorem out_block_eq (x0 : Vec Ideal S3200x3 .f32) (x1 : Vec Ideal S1x64 .f32) (x2 : Vec Ideal S64 .f32)
    (x3 : Vec Ideal S64x64 .f32) (x4 : Vec Ideal S64 .f32) (x5 : Vec Ideal S64x2 .f32) (x6 : Vec Ideal S2 .f32) :
    Gen.out0_7 (F := Ideal) x0 x1 x2 x3 x4 x5 x6 = Cert.EdgeMlp.msgRows x0 x1 x2 x3 x4 x5 x6 := by
  unfold Gen.out0_7
  rw [View.canon_unit_zero zeroOff2]
  simp only [View.ld_unit_zero (S := S3200x3) zeroOff2, View.ld_unit_zero (S := S1x64) zeroOff2, View.ld_unit_zero (S := S64) zeroOff1,
    View.ld_unit_zero (S := S64x64) zeroOff2, View.ld_unit_zero (S := S64x2) zeroOff2, View.ld_unit_zero (S := S2) zeroOff1]
  funext j
  obtain ⟨p, q, rfl⟩ : ∃ (p : Fin 3200) (q : Fin 3), j = ix2 p q := ⟨j 0, j 1, eq_ix2 j⟩
  rw [pay1_apply, pay3_apply, pay4_apply, pay4_apply, Cert.EdgeMlp.msgRows_ix2]
  rfl

end Cert.KernelIdeal.BlockValue
end
-- ==== Proof.RefOps.lean ====
/-
  The reference program as a straight line of host operations.

  The printed program is cut into three windows; each window is restated here as the list of its operations in
  order, with every call of an outlined function replaced by that function's own operations over the call's
  buffers (the row norm: square, zero, row sum, column, square root; the rectifier: zero, its broadcast, the
  maximum; the floor division: the seventeen integer operations ending in the select). An operation of an
  outlined function carries its values to and from the buffers' own types along equations that are reflexivity at
  these literal buffers, so it is the plain operation on the buffers. Each window equals the run of its list, so
  the whole program equals the run of the three lists one after the other.

  Beside each list: the references its operations write (in order), that every operation touches TensorCore
  references only, that every operation determines its result, and that every written reference is in the list
  of written references. A reference outside that list keeps its contents across the window.
-/
import proofs.«157294_j1838246003277_1_alg».proof.ReferenceIdeal
import proofs.«157294_j1838246003277_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
/-- A single written reference lies in the set of a list that holds it. -/
theorem wsub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The contents after two lines run one after the other: the second line run from the contents the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Statements 1 to 60 of the program (the target row of the edge index, the edge lengths, the ratio length / (length + eps), the first layer and the start of the second), the calls' operations written in. -/
abbrev ops0 : List (HloOp τ sig (Elt F)) :=
  [ StableHlo.unary main_arg8 main_v0 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v0 main_v1 rfl shapeCasts_S1x1600000_S1600000,
    StableHlo.binary main_arg1 main_arg1 main_call0_v0 (mulf : (⟨S1600000x3, .f32⟩ : BufTy).Contents (Elt F) → (⟨S1600000x3, .f32⟩ : BufTy).Contents (Elt F) → (⟨S1600000x3, .f32⟩ : BufTy).Contents (Elt F)),
    StableHlo.nullary main_call0_cst (constant S_ .f32 0x00000000#32),
    StableHlo.binary main_call0_v0 main_call0_cst main_call0_v1 ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)),
    StableHlo.unary main_call0_v1 main_call0_v2 (broadcastInDim S1600000x1 ![0] bcast_S1600000_S1600000x1_0 : (⟨S1600000, .f32⟩ : BufTy).Contents (Elt F) → (⟨S1600000x1, .f32⟩ : BufTy).Contents (Elt F)),
    StableHlo.unary main_call0_v2 main_v2 (Host.sqrt : (⟨S1600000x1, .f32⟩ : BufTy).Contents (Elt F) → (⟨S1600000x1, .f32⟩ : BufTy).Contents (Elt F)),
    StableHlo.nullary main_cst (constant S_ .f32 0x322BCC77#32),
    StableHlo.unary main_cst main_v3 (broadcastInDim S1600000x1 ![] bcast_S_S1600000x1 : (⟨S_, .f32⟩ : BufTy).Contents (Elt F) → (⟨S1600000x1, .f32⟩ : BufTy).Contents (Elt F)),
    StableHlo.binary main_v2 main_v3 main_v4 (addf : (⟨S1600000x1, .f32⟩ : BufTy).Contents (Elt F) → (⟨S1600000x1, .f32⟩ : BufTy).Contents (Elt F) → (⟨S1600000x1, .f32⟩ : BufTy).Contents (Elt F)),
    StableHlo.binary main_v2 main_v4 main_v5 (Host.divf : (⟨S1600000x1, .f32⟩ : BufTy).Contents (Elt F) → (⟨S1600000x1, .f32⟩ : BufTy).Contents (Elt F) → (⟨S1600000x1, .f32⟩ : BufTy).Contents (Elt F)),
    StableHlo.nullary main_cst_0 (constant S_ .f32 0x00000000#32),
    StableHlo.unary main_cst_0 main_v6 (broadcastInDim S50000x3 ![] bcast_S_S50000x3 : (⟨S_, .f32⟩ : BufTy).Contents (Elt F) → (⟨S50000x3, .f32⟩ : BufTy).Contents (Elt F)),
    StableHlo.unary main_arg2 main_v7 ((extractStridedSlice S1x1x64 ![0, 0, 0] · slices_S4x1x64_S1x1x64_0_0_0) : (⟨S4x1x64, .f32⟩ : BufTy).Contents (Elt F) → (⟨S1x1x64, .f32⟩ : BufTy).Contents (Elt F)),
    StableHlo.reshape main_v7 main_v8 rfl shapeCasts_S1x1x64_S1x64,
    StableHlo.binary main_v2 main_v8 main_v9 ((fun l r => Host.dotGeneral dot_S1600000x1_S1x64_S1600000x64_1_0_0_1_n_n none l r) : (⟨S1600000x1, .f32⟩ : BufTy).Contents (Elt F) → (⟨S1x64, .f32⟩ : BufTy).Contents (Elt F) → (⟨S1600000x64, .f32⟩ : BufTy).Contents (Elt F)),
    StableHlo.unary main_arg3 main_v10 ((extractStridedSlice S1x64 ![0, 0] · slices_S4x64_S1x64_0_0) : (⟨S4x64, .f32⟩ : BufTy).Contents (Elt F) → (⟨S1x64, .f32⟩ : BufTy).Contents (Elt F)),
    StableHlo.reshape main_v10 main_v11 rfl shapeCasts_S1x64_S64,
    StableHlo.unary main_v11 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S1600000x64 ![0, 1] bcast_S1x64_S1600000x64_0_1 : (⟨S1x64, .f32⟩ : BufTy).Contents (Elt F) → (⟨S1600000x64, .f32⟩ : BufTy).Contents (Elt F)),
    StableHlo.binary main_v9 main_v13 main_v14 (addf : (⟨S1600000x64, .f32⟩ : BufTy).Contents (Elt F) → (⟨S1600000x64, .f32⟩ : BufTy).Contents (Elt F) → (⟨S1600000x64, .f32⟩ : BufTy).Contents (Elt F)),
    StableHlo.nullary main_call1_cst (constant S_ .f32 0x00000000#32),
    StableHlo.unary main_call1_cst main_call1_v0 (broadcastInDim S1600000x64 ![] bcast_S_S1600000x64 : (⟨S_, .f32⟩ : BufTy).Contents (Elt F) → (⟨S1600000x64, .f32⟩ : BufTy).Contents (Elt F)),
    StableHlo.binary main_v14 main_call1_v0 main_v15 (maximumf : (⟨S1600000x64, .f32⟩ : BufTy).Contents (Elt F) → (⟨S1600000x64, .f32⟩ : BufTy).Contents (Elt F) → (⟨S1600000x64, .f32⟩ : BufTy).Contents (Elt F)),
    StableHlo.unary main_arg4 main_v16 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v16 main_v17 rfl shapeCasts_S1x64x64_S64x64,
    StableHlo.binary main_v15 main_v17 main_v18 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg5 main_v19 ((extractStridedSlice S1x64 ![0, 0] · slices_S4x64_S1x64_0_0) : (⟨S4x64, .f32⟩ : BufTy).Contents (Elt F) → (⟨S1x64, .f32⟩ : BufTy).Contents (Elt F)),
    StableHlo.reshape main_v19 main_v20 rfl shapeCasts_S1x64_S64,
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1600000x64 ![0, 1] bcast_S1x64_S1600000x64_0_1 : (⟨S1x64, .f32⟩ : BufTy).Contents (Elt F) → (⟨S1600000x64, .f32⟩ : BufTy).Contents (Elt F)),
    StableHlo.binary main_v18 main_v22 main_v23 (addf : (⟨S1600000x64, .f32⟩ : BufTy).Contents (Elt F) → (⟨S1600000x64, .f32⟩ : BufTy).Contents (Elt F) → (⟨S1600000x64, .f32⟩ : BufTy).Contents (Elt F)),
    StableHlo.nullary main_call2_cst (constant S_ .f32 0x00000000#32),
    StableHlo.unary main_call2_cst main_call2_v0 (broadcastInDim S1600000x64 ![] bcast_S_S1600000x64 : (⟨S_, .f32⟩ : BufTy).Contents (Elt F) → (⟨S1600000x64, .f32⟩ : BufTy).Contents (Elt F)),
    StableHlo.binary main_v23 main_call2_v0 main_v24 (maximumf : (⟨S1600000x64, .f32⟩ : BufTy).Contents (Elt F) → (⟨S1600000x64, .f32⟩ : BufTy).Contents (Elt F) → (⟨S1600000x64, .f32⟩ : BufTy).Contents (Elt F)),
    StableHlo.unary main_arg6 main_v25 ((extractStridedSlice S1x64x2 ![0, 0, 0] · slices_S4x64x2_S1x64x2_0_0_0) : (⟨S4x64x2, .f32⟩ : BufTy).Contents (Elt F) → (⟨S1x64x2, .f32⟩ : BufTy).Contents (Elt F)),
    StableHlo.reshape main_v25 main_v26 rfl shapeCasts_S1x64x2_S64x2,
    StableHlo.binary main_v24 main_v26 main_v27 ((fun l r => Host.dotGeneral dot_S1600000x64_S64x2_S1600000x2_1_0_0_1_n_n none l r) : (⟨S1600000x64, .f32⟩ : BufTy).Contents (Elt F) → (⟨S64x2, .f32⟩ : BufTy).Contents (Elt F) → (⟨S1600000x2, .f32⟩ : BufTy).Contents (Elt F)),
    StableHlo.unary main_arg7 main_v28 ((extractStridedSlice S1x2 ![0, 0] · slices_S4x2_S1x2_0_0) : (⟨S4x2, .f32⟩ : BufTy).Contents (Elt F) → (⟨S1x2, .f32⟩ : BufTy).Contents (Elt F)),
    StableHlo.reshape main_v28 main_v29 rfl shapeCasts_S1x2_S2,
    StableHlo.unary main_v29 main_v30 (broadcastInDim S1x2 ![1] bcast_S2_S1x2_1 : (⟨S2, .f32⟩ : BufTy).Contents (Elt F) → (⟨S1x2, .f32⟩ : BufTy).Contents (Elt F)),
    StableHlo.unary main_v30 main_v31 (broadcastInDim S1600000x2 ![0, 1] bcast_S1x2_S1600000x2_0_1 : (⟨S1x2, .f32⟩ : BufTy).Contents (Elt F) → (⟨S1600000x2, .f32⟩ : BufTy).Contents (Elt F)),
    StableHlo.binary main_v27 main_v31 main_v32 (addf : (⟨S1600000x2, .f32⟩ : BufTy).Contents (Elt F) → (⟨S1600000x2, .f32⟩ : BufTy).Contents (Elt F) → (⟨S1600000x2, .f32⟩ : BufTy).Contents (Elt F)),
    StableHlo.unary main_v32 main_v33 ((extractStridedSlice S1600000x1 ![0, 0] · slices_S1600000x2_S1600000x1_0_0) : (⟨S1600000x2, .f32⟩ : BufTy).Contents (Elt F) → (⟨S1600000x1, .f32⟩ : BufTy).Contents (Elt F)),
    StableHlo.unary main_v33 main_v34 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v34 main_arg1 main_v35 (mulf : (⟨S1600000x3, .f32⟩ : BufTy).Contents (Elt F) → (⟨S1600000x3, .f32⟩ : BufTy).Contents (Elt F) → (⟨S1600000x3, .f32⟩ : BufTy).Contents (Elt F)),
    StableHlo.unary main_v32 main_v36 ((extractStridedSlice S1600000x1 ![0, 1] · slices_S1600000x2_S1600000x1_0_1) : (⟨S1600000x2, .f32⟩ : BufTy).Contents (Elt F) → (⟨S1600000x1, .f32⟩ : BufTy).Contents (Elt F)),
    StableHlo.unary main_v36 main_v37 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v37 main_arg1 main_v38 (mulf : (⟨S1600000x3, .f32⟩ : BufTy).Contents (Elt F) → (⟨S1600000x3, .f32⟩ : BufTy).Contents (Elt F) → (⟨S1600000x3, .f32⟩ : BufTy).Contents (Elt F)),
    StableHlo.unary main_v5 main_v39 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v38 main_v39 main_v40 (mulf : (⟨S1600000x3, .f32⟩ : BufTy).Contents (Elt F) → (⟨S1600000x3, .f32⟩ : BufTy).Contents (Elt F) → (⟨S1600000x3, .f32⟩ : BufTy).Contents (Elt F)),
    StableHlo.binary main_v35 main_v40 main_v41 (addf : (⟨S1600000x3, .f32⟩ : BufTy).Contents (Elt F) → (⟨S1600000x3, .f32⟩ : BufTy).Contents (Elt F) → (⟨S1600000x3, .f32⟩ : BufTy).Contents (Elt F)),
    StableHlo.nullary main_cst_1 (constant S_ .f32 0x00000000#32),
    StableHlo.unary main_cst_1 main_v42 (broadcastInDim S50000x3 ![] bcast_S_S50000x3 : (⟨S_, .f32⟩ : BufTy).Contents (Elt F) → (⟨S50000x3, .f32⟩ : BufTy).Contents (Elt F)),
    StableHlo.unary main_v1 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S50000x3_S1600000x1_S1600000x3_1_0_0_1 x i u) : (⟨S50000x3, .f32⟩ : BufTy).Contents (Elt F) → (⟨S1600000x1, .i32⟩ : BufTy).Contents (Elt F) → (⟨S1600000x3, .f32⟩ : BufTy).Contents (Elt F) → (⟨S50000x3, .f32⟩ : BufTy).Contents (Elt F)),
    StableHlo.unary main_arg2 main_v45 ((extractStridedSlice S1x1x64 ![1, 0, 0] · slices_S4x1x64_S1x1x64_1_0_0) : (⟨S4x1x64, .f32⟩ : BufTy).Contents (Elt F) → (⟨S1x1x64, .f32⟩ : BufTy).Contents (Elt F)),
    StableHlo.reshape main_v45 main_v46 rfl shapeCasts_S1x1x64_S1x64,
    StableHlo.binary main_v2 main_v46 main_v47 ((fun l r => Host.dotGeneral dot_S1600000x1_S1x64_S1600000x64_1_0_0_1_n_n none l r) : (⟨S1600000x1, .f32⟩ : BufTy).Contents (Elt F) → (⟨S1x64, .f32⟩ : BufTy).Contents (Elt F) → (⟨S1600000x64, .f32⟩ : BufTy).Contents (Elt F)),
    StableHlo.unary main_arg3 main_v48 ((extractStridedSlice S1x64 ![1, 0] · slices_S4x64_S1x64_1_0) : (⟨S4x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S1600000x64 ![0, 1] bcast_S1x64_S1600000x64_0_1 : (⟨S1x64, .f32⟩ : BufTy).Contents (Elt F) → (⟨S1600000x64, .f32⟩ : BufTy).Contents (Elt F)),
    StableHlo.binary main_v47 main_v51 main_v52 (addf : (⟨S1600000x64, .f32⟩ : BufTy).Contents (Elt F) → (⟨S1600000x64, .f32⟩ : BufTy).Contents (Elt F) → (⟨S1600000x64, .f32⟩ : BufTy).Contents (Elt F)),
    StableHlo.nullary main_call3_cst (constant S_ .f32 0x00000000#32),
    StableHlo.unary main_call3_cst main_call3_v0 (broadcastInDim S1600000x64 ![] bcast_S_S1600000x64 : (⟨S_, .f32⟩ : BufTy).Contents (Elt F) → (⟨S1600000x64, .f32⟩ : BufTy).Contents (Elt F)),
    StableHlo.binary main_v52 main_call3_v0 main_v53 (maximumf : (⟨S1600000x64, .f32⟩ : BufTy).Contents (Elt F) → (⟨S1600000x64, .f32⟩ : BufTy).Contents (Elt F) → (⟨S1600000x64, .f32⟩ : BufTy).Contents (Elt F)),
    StableHlo.unary main_arg4 main_v54 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v54 main_v55 rfl shapeCasts_S1x64x64_S64x64,
    StableHlo.binary main_v53 main_v55 main_v56 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) ]

/-- The references those operations write, in order. -/
abbrev written0 : List (Ref sig .tc) :=
  [ main_v0, main_v1, main_call0_v0, main_call0_cst, main_call0_v1, main_call0_v2, main_v2, main_cst,
    main_v3, main_v4, main_v5, main_cst_0, main_v6, main_v7, main_v8, main_v9,
    main_v10, main_v11, main_v12, main_v13, main_v14, main_call1_cst, main_call1_v0, main_v15,
    main_v16, main_v17, main_v18, main_v19, main_v20, main_v21, main_v22, main_v23,
    main_call2_cst, main_call2_v0, main_v24, main_v25, main_v26, main_v27, main_v28, main_v29,
    main_v30, main_v31, main_v32, main_v33, main_v34, main_v35, main_v36, main_v37,
    main_v38, main_v39, main_v40, main_v41, main_cst_1, main_v42, main_v43, main_v44,
    main_v45, main_v46, main_v47, main_v48, main_v49, main_v50, main_v51, main_v52,
    main_call3_cst, main_call3_v0, main_v53, main_v54, main_v55, main_v56 ]

theorem ops0_sub : (ops0 : List (HloOp τ sig (Elt F))).Forall fun op => op.bufs ⊆ tcRefs τ sig :=
  ⟨unary_bufs_sub .., reshape_bufs_sub .., binary_bufs_sub .., nullary_bufs_sub .., binary_bufs_sub .., unary_bufs_sub ..,
    unary_bufs_sub .., nullary_bufs_sub .., unary_bufs_sub .., binary_bufs_sub .., binary_bufs_sub .., nullary_bufs_sub ..,
    unary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., binary_bufs_sub .., binary_bufs_sub .., nullary_bufs_sub .., unary_bufs_sub ..,
    unary_bufs_sub .., ternary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem ops0_writes : (ops0 : List (HloOp τ sig (Elt F))).Forall fun op =>
    op.writes ⊆ ((written0).map (Proc.devRef (τ := τ) .tc)).toFinset :=
  ⟨wsub main_v0 (by decide), wsub main_v1 (by decide), wsub main_call0_v0 (by decide), wsub main_call0_cst (by decide),
    wsub main_call0_v1 (by decide), wsub main_call0_v2 (by decide), wsub main_v2 (by decide), wsub main_cst (by decide),
    wsub main_v3 (by decide), wsub main_v4 (by decide), wsub main_v5 (by decide), wsub main_cst_0 (by decide),
    wsub main_v6 (by decide), wsub main_v7 (by decide), wsub main_v8 (by decide), wsub main_v9 (by decide),
    wsub main_v10 (by decide), wsub main_v11 (by decide), wsub main_v12 (by decide), wsub main_v13 (by decide),
    wsub main_v14 (by decide), wsub main_call1_cst (by decide), wsub main_call1_v0 (by decide), wsub main_v15 (by decide),
    wsub main_v16 (by decide), wsub main_v17 (by decide), wsub main_v18 (by decide), wsub main_v19 (by decide),
    wsub main_v20 (by decide), wsub main_v21 (by decide), wsub main_v22 (by decide), wsub main_v23 (by decide),
    wsub main_call2_cst (by decide), wsub main_call2_v0 (by decide), wsub main_v24 (by decide), wsub main_v25 (by decide),
    wsub main_v26 (by decide), wsub main_v27 (by decide), wsub main_v28 (by decide), wsub main_v29 (by decide),
    wsub main_v30 (by decide), wsub main_v31 (by decide), wsub main_v32 (by decide), wsub main_v33 (by decide),
    wsub main_v34 (by decide), wsub main_v35 (by decide), wsub main_v36 (by decide), wsub main_v37 (by decide),
    wsub main_v38 (by decide), wsub main_v39 (by decide), wsub main_v40 (by decide), wsub main_v41 (by decide),
    wsub main_cst_1 (by decide), wsub main_v42 (by decide), wsub main_v43 (by decide), wsub main_v44 (by decide),
    wsub main_v45 (by decide), wsub main_v46 (by decide), wsub main_v47 (by decide), wsub main_v48 (by decide),
    wsub main_v49 (by decide), wsub main_v50 (by decide), wsub main_v51 (by decide), wsub main_v52 (by decide),
    wsub main_call3_cst (by decide), wsub main_call3_v0 (by decide), wsub main_v53 (by decide), wsub main_v54 (by decide),
    wsub main_v55 (by decide), wsub main_v56 (by decide)⟩

/-- Statements 61 to 120 of the program (the rest of the second layer and most of the third), the calls' operations written in. -/
abbrev ops1 : List (HloOp τ sig (Elt F)) :=
  [ StableHlo.unary main_arg5 main_v57 ((extractStridedSlice S1x64 ![1, 0] · slices_S4x64_S1x64_1_0) : (⟨S4x64, .f32⟩ : BufTy).Contents (Elt F) → (⟨S1x64, .f32⟩ : BufTy).Contents (Elt F)),
    StableHlo.reshape main_v57 main_v58 rfl shapeCasts_S1x64_S64,
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S1600000x64 ![0, 1] bcast_S1x64_S1600000x64_0_1 : (⟨S1x64, .f32⟩ : BufTy).Contents (Elt F) → (⟨S1600000x64, .f32⟩ : BufTy).Contents (Elt F)),
    StableHlo.binary main_v56 main_v60 main_v61 (addf : (⟨S1600000x64, .f32⟩ : BufTy).Contents (Elt F) → (⟨S1600000x64, .f32⟩ : BufTy).Contents (Elt F) → (⟨S1600000x64, .f32⟩ : BufTy).Contents (Elt F)),
    StableHlo.nullary main_call4_cst (constant S_ .f32 0x00000000#32),
    StableHlo.unary main_call4_cst main_call4_v0 (broadcastInDim S1600000x64 ![] bcast_S_S1600000x64 : (⟨S_, .f32⟩ : BufTy).Contents (Elt F) → (⟨S1600000x64, .f32⟩ : BufTy).Contents (Elt F)),
    StableHlo.binary main_v61 main_call4_v0 main_v62 (maximumf : (⟨S1600000x64, .f32⟩ : BufTy).Contents (Elt F) → (⟨S1600000x64, .f32⟩ : BufTy).Contents (Elt F) → (⟨S1600000x64, .f32⟩ : BufTy).Contents (Elt F)),
    StableHlo.unary main_arg6 main_v63 ((extractStridedSlice S1x64x2 ![1, 0, 0] · slices_S4x64x2_S1x64x2_1_0_0) : (⟨S4x64x2, .f32⟩ : BufTy).Contents (Elt F) → (⟨S1x64x2, .f32⟩ : BufTy).Contents (Elt F)),
    StableHlo.reshape main_v63 main_v64 rfl shapeCasts_S1x64x2_S64x2,
    StableHlo.binary main_v62 main_v64 main_v65 ((fun l r => Host.dotGeneral dot_S1600000x64_S64x2_S1600000x2_1_0_0_1_n_n none l r) : (⟨S1600000x64, .f32⟩ : BufTy).Contents (Elt F) → (⟨S64x2, .f32⟩ : BufTy).Contents (Elt F) → (⟨S1600000x2, .f32⟩ : BufTy).Contents (Elt F)),
    StableHlo.unary main_arg7 main_v66 ((extractStridedSlice S1x2 ![1, 0] · slices_S4x2_S1x2_1_0) : (⟨S4x2, .f32⟩ : BufTy).Contents (Elt F) → (⟨S1x2, .f32⟩ : BufTy).Contents (Elt F)),
    StableHlo.reshape main_v66 main_v67 rfl shapeCasts_S1x2_S2,
    StableHlo.unary main_v67 main_v68 (broadcastInDim S1x2 ![1] bcast_S2_S1x2_1 : (⟨S2, .f32⟩ : BufTy).Contents (Elt F) → (⟨S1x2, .f32⟩ : BufTy).Contents (Elt F)),
    StableHlo.unary main_v68 main_v69 (broadcastInDim S1600000x2 ![0, 1] bcast_S1x2_S1600000x2_0_1 : (⟨S1x2, .f32⟩ : BufTy).Contents (Elt F) → (⟨S1600000x2, .f32⟩ : BufTy).Contents (Elt F)),
    StableHlo.binary main_v65 main_v69 main_v70 (addf : (⟨S1600000x2, .f32⟩ : BufTy).Contents (Elt F) → (⟨S1600000x2, .f32⟩ : BufTy).Contents (Elt F) → (⟨S1600000x2, .f32⟩ : BufTy).Contents (Elt F)),
    StableHlo.unary main_v70 main_v71 ((extractStridedSlice S1600000x1 ![0, 0] · slices_S1600000x2_S1600000x1_0_0) : (⟨S1600000x2, .f32⟩ : BufTy).Contents (Elt F) → (⟨S1600000x1, .f32⟩ : BufTy).Contents (Elt F)),
    StableHlo.unary main_v71 main_v72 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v72 main_arg1 main_v73 (mulf : (⟨S1600000x3, .f32⟩ : BufTy).Contents (Elt F) → (⟨S1600000x3, .f32⟩ : BufTy).Contents (Elt F) → (⟨S1600000x3, .f32⟩ : BufTy).Contents (Elt F)),
    StableHlo.unary main_v70 main_v74 ((extractStridedSlice S1600000x1 ![0, 1] · slices_S1600000x2_S1600000x1_0_1) : (⟨S1600000x2, .f32⟩ : BufTy).Contents (Elt F) → (⟨S1600000x1, .f32⟩ : BufTy).Contents (Elt F)),
    StableHlo.unary main_v74 main_v75 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v75 main_arg1 main_v76 (mulf : (⟨S1600000x3, .f32⟩ : BufTy).Contents (Elt F) → (⟨S1600000x3, .f32⟩ : BufTy).Contents (Elt F) → (⟨S1600000x3, .f32⟩ : BufTy).Contents (Elt F)),
    StableHlo.unary main_v5 main_v77 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v76 main_v77 main_v78 (mulf : (⟨S1600000x3, .f32⟩ : BufTy).Contents (Elt F) → (⟨S1600000x3, .f32⟩ : BufTy).Contents (Elt F) → (⟨S1600000x3, .f32⟩ : BufTy).Contents (Elt F)),
    StableHlo.binary main_v73 main_v78 main_v79 (addf : (⟨S1600000x3, .f32⟩ : BufTy).Contents (Elt F) → (⟨S1600000x3, .f32⟩ : BufTy).Contents (Elt F) → (⟨S1600000x3, .f32⟩ : BufTy).Contents (Elt F)),
    StableHlo.nullary main_cst_2 (constant S_ .f32 0x00000000#32),
    StableHlo.unary main_cst_2 main_v80 (broadcastInDim S50000x3 ![] bcast_S_S50000x3 : (⟨S_, .f32⟩ : BufTy).Contents (Elt F) → (⟨S50000x3, .f32⟩ : BufTy).Contents (Elt F)),
    StableHlo.unary main_v1 main_v81 (broadcastInDim S1600000x1 ![0] bcast_S1600000_S1600000x1_0 : (⟨S1600000, .i32⟩ : BufTy).Contents (Elt F) → (⟨S1600000x1, .i32⟩ : BufTy).Contents (Elt F)),
    StableHlo.ternary main_v80 main_v81 main_v79 main_v82 ((fun x i u => Host.scatterAdd scatter_S50000x3_S1600000x1_S1600000x3_1_0_0_1 x i u) : (⟨S50000x3, .f32⟩ : BufTy).Contents (Elt F) → (⟨S1600000x1, .i32⟩ : BufTy).Contents (Elt F) → (⟨S1600000x3, .f32⟩ : BufTy).Contents (Elt F) → (⟨S50000x3, .f32⟩ : BufTy).Contents (Elt F)),
    StableHlo.unary main_arg2 main_v83 ((extractStridedSlice S1x1x64 ![2, 0, 0] · slices_S4x1x64_S1x1x64_2_0_0) : (⟨S4x1x64, .f32⟩ : BufTy).Contents (Elt F) → (⟨S1x1x64, .f32⟩ : BufTy).Contents (Elt F)),
    StableHlo.reshape main_v83 main_v84 rfl shapeCasts_S1x1x64_S1x64,
    StableHlo.binary main_v2 main_v84 main_v85 ((fun l r => Host.dotGeneral dot_S1600000x1_S1x64_S1600000x64_1_0_0_1_n_n none l r) : (⟨S1600000x1, .f32⟩ : BufTy).Contents (Elt F) → (⟨S1x64, .f32⟩ : BufTy).Contents (Elt F) → (⟨S1600000x64, .f32⟩ : BufTy).Contents (Elt F)),
    StableHlo.unary main_arg3 main_v86 ((extractStridedSlice S1x64 ![2, 0] · slices_S4x64_S1x64_2_0) : (⟨S4x64, .f32⟩ : BufTy).Contents (Elt F) → (⟨S1x64, .f32⟩ : BufTy).Contents (Elt F)),
    StableHlo.reshape main_v86 main_v87 rfl shapeCasts_S1x64_S64,
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S1600000x64 ![0, 1] bcast_S1x64_S1600000x64_0_1 : (⟨S1x64, .f32⟩ : BufTy).Contents (Elt F) → (⟨S1600000x64, .f32⟩ : BufTy).Contents (Elt F)),
    StableHlo.binary main_v85 main_v89 main_v90 (addf : (⟨S1600000x64, .f32⟩ : BufTy).Contents (Elt F) → (⟨S1600000x64, .f32⟩ : BufTy).Contents (Elt F) → (⟨S1600000x64, .f32⟩ : BufTy).Contents (Elt F)),
    StableHlo.nullary main_call5_cst (constant S_ .f32 0x00000000#32),
    StableHlo.unary main_call5_cst main_call5_v0 (broadcastInDim S1600000x64 ![] bcast_S_S1600000x64 : (⟨S_, .f32⟩ : BufTy).Contents (Elt F) → (⟨S1600000x64, .f32⟩ : BufTy).Contents (Elt F)),
    StableHlo.binary main_v90 main_call5_v0 main_v91 (maximumf : (⟨S1600000x64, .f32⟩ : BufTy).Contents (Elt F) → (⟨S1600000x64, .f32⟩ : BufTy).Contents (Elt F) → (⟨S1600000x64, .f32⟩ : BufTy).Contents (Elt F)),
    StableHlo.unary main_arg4 main_v92 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg5 main_v95 ((extractStridedSlice S1x64 ![2, 0] · slices_S4x64_S1x64_2_0) : (⟨S4x64, .f32⟩ : BufTy).Contents (Elt F) → (⟨S1x64, .f32⟩ : BufTy).Contents (Elt F)),
    StableHlo.reshape main_v95 main_v96 rfl shapeCasts_S1x64_S64,
    StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S1600000x64 ![0, 1] bcast_S1x64_S1600000x64_0_1 : (⟨S1x64, .f32⟩ : BufTy).Contents (Elt F) → (⟨S1600000x64, .f32⟩ : BufTy).Contents (Elt F)),
    StableHlo.binary main_v94 main_v98 main_v99 (addf : (⟨S1600000x64, .f32⟩ : BufTy).Contents (Elt F) → (⟨S1600000x64, .f32⟩ : BufTy).Contents (Elt F) → (⟨S1600000x64, .f32⟩ : BufTy).Contents (Elt F)),
    StableHlo.nullary main_call6_cst (constant S_ .f32 0x00000000#32),
    StableHlo.unary main_call6_cst main_call6_v0 (broadcastInDim S1600000x64 ![] bcast_S_S1600000x64 : (⟨S_, .f32⟩ : BufTy).Contents (Elt F) → (⟨S1600000x64, .f32⟩ : BufTy).Contents (Elt F)),
    StableHlo.binary main_v99 main_call6_v0 main_v100 (maximumf : (⟨S1600000x64, .f32⟩ : BufTy).Contents (Elt F) → (⟨S1600000x64, .f32⟩ : BufTy).Contents (Elt F) → (⟨S1600000x64, .f32⟩ : BufTy).Contents (Elt F)),
    StableHlo.unary main_arg6 main_v101 ((extractStridedSlice S1x64x2 ![2, 0, 0] · slices_S4x64x2_S1x64x2_2_0_0) : (⟨S4x64x2, .f32⟩ : BufTy).Contents (Elt F) → (⟨S1x64x2, .f32⟩ : BufTy).Contents (Elt F)),
    StableHlo.reshape main_v101 main_v102 rfl shapeCasts_S1x64x2_S64x2,
    StableHlo.binary main_v100 main_v102 main_v103 ((fun l r => Host.dotGeneral dot_S1600000x64_S64x2_S1600000x2_1_0_0_1_n_n none l r) : (⟨S1600000x64, .f32⟩ : BufTy).Contents (Elt F) → (⟨S64x2, .f32⟩ : BufTy).Contents (Elt F) → (⟨S1600000x2, .f32⟩ : BufTy).Contents (Elt F)),
    StableHlo.unary main_arg7 main_v104 ((extractStridedSlice S1x2 ![2, 0] · slices_S4x2_S1x2_2_0) : (⟨S4x2, .f32⟩ : BufTy).Contents (Elt F) → (⟨S1x2, .f32⟩ : BufTy).Contents (Elt F)),
    StableHlo.reshape main_v104 main_v105 rfl shapeCasts_S1x2_S2,
    StableHlo.unary main_v105 main_v106 (broadcastInDim S1x2 ![1] bcast_S2_S1x2_1 : (⟨S2, .f32⟩ : BufTy).Contents (Elt F) → (⟨S1x2, .f32⟩ : BufTy).Contents (Elt F)),
    StableHlo.unary main_v106 main_v107 (broadcastInDim S1600000x2 ![0, 1] bcast_S1x2_S1600000x2_0_1 : (⟨S1x2, .f32⟩ : BufTy).Contents (Elt F) → (⟨S1600000x2, .f32⟩ : BufTy).Contents (Elt F)),
    StableHlo.binary main_v103 main_v107 main_v108 (addf : (⟨S1600000x2, .f32⟩ : BufTy).Contents (Elt F) → (⟨S1600000x2, .f32⟩ : BufTy).Contents (Elt F) → (⟨S1600000x2, .f32⟩ : BufTy).Contents (Elt F)),
    StableHlo.unary main_v108 main_v109 ((extractStridedSlice S1600000x1 ![0, 0] · slices_S1600000x2_S1600000x1_0_0) : (⟨S1600000x2, .f32⟩ : BufTy).Contents (Elt F) → (⟨S1600000x1, .f32⟩ : BufTy).Contents (Elt F)),
    StableHlo.unary main_v109 main_v110 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v110 main_arg1 main_v111 (mulf : (⟨S1600000x3, .f32⟩ : BufTy).Contents (Elt F) → (⟨S1600000x3, .f32⟩ : BufTy).Contents (Elt F) → (⟨S1600000x3, .f32⟩ : BufTy).Contents (Elt F)),
    StableHlo.unary main_v108 main_v112 ((extractStridedSlice S1600000x1 ![0, 1] · slices_S1600000x2_S1600000x1_0_1) : (⟨S1600000x2, .f32⟩ : BufTy).Contents (Elt F) → (⟨S1600000x1, .f32⟩ : BufTy).Contents (Elt F)),
    StableHlo.unary main_v112 main_v113 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v113 main_arg1 main_v114 (mulf : (⟨S1600000x3, .f32⟩ : BufTy).Contents (Elt F) → (⟨S1600000x3, .f32⟩ : BufTy).Contents (Elt F) → (⟨S1600000x3, .f32⟩ : BufTy).Contents (Elt F)),
    StableHlo.unary main_v5 main_v115 (broadcastInDim S1600000x3 ![0, 1] bcast_S1600000x1_S1600000x3_0_1 : (⟨S1600000x1, .f32⟩ : BufTy).Contents (Elt F) → (⟨S1600000x3, .f32⟩ : BufTy).Contents (Elt F)) ]

/-- The references those operations write, in order. -/
abbrev written1 : List (Ref sig .tc) :=
  [ main_v57, main_v58, main_v59, main_v60, main_v61, main_call4_cst, main_call4_v0, main_v62,
    main_v63, main_v64, main_v65, main_v66, main_v67, main_v68, main_v69, main_v70,
    main_v71, main_v72, main_v73, main_v74, main_v75, main_v76, main_v77, main_v78,
    main_v79, main_cst_2, main_v80, main_v81, main_v82, main_v83, main_v84, main_v85,
    main_v86, main_v87, main_v88, main_v89, main_v90, main_call5_cst, main_call5_v0, main_v91,
    main_v92, main_v93, main_v94, main_v95, main_v96, main_v97, main_v98, main_v99,
    main_call6_cst, main_call6_v0, main_v100, main_v101, main_v102, main_v103, main_v104, main_v105,
    main_v106, main_v107, main_v108, main_v109, main_v110, main_v111, main_v112, main_v113,
    main_v114, main_v115 ]

theorem ops1_sub : (ops1 : List (HloOp τ sig (Elt F))).Forall fun op => op.bufs ⊆ tcRefs τ sig :=
  ⟨unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., unary_bufs_sub ..,
    binary_bufs_sub .., unary_bufs_sub .., unary_bufs_sub .., binary_bufs_sub .., unary_bufs_sub .., binary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    unary_bufs_sub .., binary_bufs_sub .., unary_bufs_sub .., unary_bufs_sub .., binary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

theorem ops1_writes : (ops1 : List (HloOp τ sig (Elt F))).Forall fun op =>
    op.writes ⊆ ((written1).map (Proc.devRef (τ := τ) .tc)).toFinset :=
  ⟨wsub main_v57 (by decide), wsub main_v58 (by decide), wsub main_v59 (by decide), wsub main_v60 (by decide),
    wsub main_v61 (by decide), wsub main_call4_cst (by decide), wsub main_call4_v0 (by decide), wsub main_v62 (by decide),
    wsub main_v63 (by decide), wsub main_v64 (by decide), wsub main_v65 (by decide), wsub main_v66 (by decide),
    wsub main_v67 (by decide), wsub main_v68 (by decide), wsub main_v69 (by decide), wsub main_v70 (by decide),
    wsub main_v71 (by decide), wsub main_v72 (by decide), wsub main_v73 (by decide), wsub main_v74 (by decide),
    wsub main_v75 (by decide), wsub main_v76 (by decide), wsub main_v77 (by decide), wsub main_v78 (by decide),
    wsub main_v79 (by decide), wsub main_cst_2 (by decide), wsub main_v80 (by decide), wsub main_v81 (by decide),
    wsub main_v82 (by decide), wsub main_v83 (by decide), wsub main_v84 (by decide), wsub main_v85 (by decide),
    wsub main_v86 (by decide), wsub main_v87 (by decide), wsub main_v88 (by decide), wsub main_v89 (by decide),
    wsub main_v90 (by decide), wsub main_call5_cst (by decide), wsub main_call5_v0 (by decide), wsub main_v91 (by decide),
    wsub main_v92 (by decide), wsub main_v93 (by decide), wsub main_v94 (by decide), wsub main_v95 (by decide),
    wsub main_v96 (by decide), wsub main_v97 (by decide), wsub main_v98 (by decide), wsub main_v99 (by decide),
    wsub main_call6_cst (by decide), wsub main_call6_v0 (by decide), wsub main_v100 (by decide), wsub main_v101 (by decide),
    wsub main_v102 (by decide), wsub main_v103 (by decide), wsub main_v104 (by decide), wsub main_v105 (by decide),
    wsub main_v106 (by decide), wsub main_v107 (by decide), wsub main_v108 (by decide), wsub main_v109 (by decide),
    wsub main_v110 (by decide), wsub main_v111 (by decide), wsub main_v112 (by decide), wsub main_v113 (by decide),
    wsub main_v114 (by decide), wsub main_v115 (by decide)⟩

/-- Statements 121 to 176 of the program (the end of the third layer, the last layer, the sum into target nodes, the node groups by floor division and the sum into groups), the calls' operations written in. -/
abbrev ops2 : List (HloOp τ sig (Elt F)) :=
  [ StableHlo.binary main_v114 main_v115 main_v116 (mulf : (⟨S1600000x3, .f32⟩ : BufTy).Contents (Elt F) → (⟨S1600000x3, .f32⟩ : BufTy).Contents (Elt F) → (⟨S1600000x3, .f32⟩ : BufTy).Contents (Elt F)),
    StableHlo.binary main_v111 main_v116 main_v117 (addf : (⟨S1600000x3, .f32⟩ : BufTy).Contents (Elt F) → (⟨S1600000x3, .f32⟩ : BufTy).Contents (Elt F) → (⟨S1600000x3, .f32⟩ : BufTy).Contents (Elt F)),
    StableHlo.nullary main_cst_3 (constant S_ .f32 0x00000000#32),
    StableHlo.unary main_cst_3 main_v118 (broadcastInDim S50000x3 ![] bcast_S_S50000x3 : (⟨S_, .f32⟩ : BufTy).Contents (Elt F) → (⟨S50000x3, .f32⟩ : BufTy).Contents (Elt F)),
    StableHlo.unary main_v1 main_v119 (broadcastInDim S1600000x1 ![0] bcast_S1600000_S1600000x1_0 : (⟨S1600000, .i32⟩ : BufTy).Contents (Elt F) → (⟨S1600000x1, .i32⟩ : BufTy).Contents (Elt F)),
    StableHlo.ternary main_v118 main_v119 main_v117 main_v120 ((fun x i u => Host.scatterAdd scatter_S50000x3_S1600000x1_S1600000x3_1_0_0_1 x i u) : (⟨S50000x3, .f32⟩ : BufTy).Contents (Elt F) → (⟨S1600000x1, .i32⟩ : BufTy).Contents (Elt F) → (⟨S1600000x3, .f32⟩ : BufTy).Contents (Elt F) → (⟨S50000x3, .f32⟩ : BufTy).Contents (Elt F)),
    StableHlo.unary main_arg2 main_v121 ((extractStridedSlice S1x1x64 ![3, 0, 0] · slices_S4x1x64_S1x1x64_3_0_0) : (⟨S4x1x64, .f32⟩ : BufTy).Contents (Elt F) → (⟨S1x1x64, .f32⟩ : BufTy).Contents (Elt F)),
    StableHlo.reshape main_v121 main_v122 rfl shapeCasts_S1x1x64_S1x64,
    StableHlo.binary main_v2 main_v122 main_v123 ((fun l r => Host.dotGeneral dot_S1600000x1_S1x64_S1600000x64_1_0_0_1_n_n none l r) : (⟨S1600000x1, .f32⟩ : BufTy).Contents (Elt F) → (⟨S1x64, .f32⟩ : BufTy).Contents (Elt F) → (⟨S1600000x64, .f32⟩ : BufTy).Contents (Elt F)),
    StableHlo.unary main_arg3 main_v124 ((extractStridedSlice S1x64 ![3, 0] · slices_S4x64_S1x64_3_0) : (⟨S4x64, .f32⟩ : BufTy).Contents (Elt F) → (⟨S1x64, .f32⟩ : BufTy).Contents (Elt F)),
    StableHlo.reshape main_v124 main_v125 rfl shapeCasts_S1x64_S64,
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S1600000x64 ![0, 1] bcast_S1x64_S1600000x64_0_1 : (⟨S1x64, .f32⟩ : BufTy).Contents (Elt F) → (⟨S1600000x64, .f32⟩ : BufTy).Contents (Elt F)),
    StableHlo.binary main_v123 main_v127 main_v128 (addf : (⟨S1600000x64, .f32⟩ : BufTy).Contents (Elt F) → (⟨S1600000x64, .f32⟩ : BufTy).Contents (Elt F) → (⟨S1600000x64, .f32⟩ : BufTy).Contents (Elt F)),
    StableHlo.nullary main_call7_cst (constant S_ .f32 0x00000000#32),
    StableHlo.unary main_call7_cst main_call7_v0 (broadcastInDim S1600000x64 ![] bcast_S_S1600000x64 : (⟨S_, .f32⟩ : BufTy).Contents (Elt F) → (⟨S1600000x64, .f32⟩ : BufTy).Contents (Elt F)),
    StableHlo.binary main_v128 main_call7_v0 main_v129 (maximumf : (⟨S1600000x64, .f32⟩ : BufTy).Contents (Elt F) → (⟨S1600000x64, .f32⟩ : BufTy).Contents (Elt F) → (⟨S1600000x64, .f32⟩ : BufTy).Contents (Elt F)),
    StableHlo.unary main_arg4 main_v130 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v130 main_v131 rfl shapeCasts_S1x64x64_S64x64,
    StableHlo.binary main_v129 main_v131 main_v132 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg5 main_v133 ((extractStridedSlice S1x64 ![3, 0] · slices_S4x64_S1x64_3_0) : (⟨S4x64, .f32⟩ : BufTy).Contents (Elt F) → (⟨S1x64, .f32⟩ : BufTy).Contents (Elt F)),
    StableHlo.reshape main_v133 main_v134 rfl shapeCasts_S1x64_S64,
    StableHlo.unary main_v134 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S1600000x64 ![0, 1] bcast_S1x64_S1600000x64_0_1 : (⟨S1x64, .f32⟩ : BufTy).Contents (Elt F) → (⟨S1600000x64, .f32⟩ : BufTy).Contents (Elt F)),
    StableHlo.binary main_v132 main_v136 main_v137 (addf : (⟨S1600000x64, .f32⟩ : BufTy).Contents (Elt F) → (⟨S1600000x64, .f32⟩ : BufTy).Contents (Elt F) → (⟨S1600000x64, .f32⟩ : BufTy).Contents (Elt F)),
    StableHlo.nullary main_call8_cst (constant S_ .f32 0x00000000#32),
    StableHlo.unary main_call8_cst main_call8_v0 (broadcastInDim S1600000x64 ![] bcast_S_S1600000x64 : (⟨S_, .f32⟩ : BufTy).Contents (Elt F) → (⟨S1600000x64, .f32⟩ : BufTy).Contents (Elt F)),
    StableHlo.binary main_v137 main_call8_v0 main_v138 (maximumf : (⟨S1600000x64, .f32⟩ : BufTy).Contents (Elt F) → (⟨S1600000x64, .f32⟩ : BufTy).Contents (Elt F) → (⟨S1600000x64, .f32⟩ : BufTy).Contents (Elt F)),
    StableHlo.unary main_arg6 main_v139 ((extractStridedSlice S1x64x2 ![3, 0, 0] · slices_S4x64x2_S1x64x2_3_0_0) : (⟨S4x64x2, .f32⟩ : BufTy).Contents (Elt F) → (⟨S1x64x2, .f32⟩ : BufTy).Contents (Elt F)),
    StableHlo.reshape main_v139 main_v140 rfl shapeCasts_S1x64x2_S64x2,
    StableHlo.binary main_v138 main_v140 main_v141 ((fun l r => Host.dotGeneral dot_S1600000x64_S64x2_S1600000x2_1_0_0_1_n_n none l r) : (⟨S1600000x64, .f32⟩ : BufTy).Contents (Elt F) → (⟨S64x2, .f32⟩ : BufTy).Contents (Elt F) → (⟨S1600000x2, .f32⟩ : BufTy).Contents (Elt F)),
    StableHlo.unary main_arg7 main_v142 ((extractStridedSlice S1x2 ![3, 0] · slices_S4x2_S1x2_3_0) : (⟨S4x2, .f32⟩ : BufTy).Contents (Elt F) → (⟨S1x2, .f32⟩ : BufTy).Contents (Elt F)),
    StableHlo.reshape main_v142 main_v143 rfl shapeCasts_S1x2_S2,
    StableHlo.unary main_v143 main_v144 (broadcastInDim S1x2 ![1] bcast_S2_S1x2_1 : (⟨S2, .f32⟩ : BufTy).Contents (Elt F) → (⟨S1x2, .f32⟩ : BufTy).Contents (Elt F)),
    StableHlo.unary main_v144 main_v145 (broadcastInDim S1600000x2 ![0, 1] bcast_S1x2_S1600000x2_0_1 : (⟨S1x2, .f32⟩ : BufTy).Contents (Elt F) → (⟨S1600000x2, .f32⟩ : BufTy).Contents (Elt F)),
    StableHlo.binary main_v141 main_v145 main_v146 (addf : (⟨S1600000x2, .f32⟩ : BufTy).Contents (Elt F) → (⟨S1600000x2, .f32⟩ : BufTy).Contents (Elt F) → (⟨S1600000x2, .f32⟩ : BufTy).Contents (Elt F)),
    StableHlo.unary main_v146 main_v147 ((extractStridedSlice S1600000x1 ![0, 0] · slices_S1600000x2_S1600000x1_0_0) : (⟨S1600000x2, .f32⟩ : BufTy).Contents (Elt F) → (⟨S1600000x1, .f32⟩ : BufTy).Contents (Elt F)),
    StableHlo.unary main_v147 main_v148 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v148 main_arg1 main_v149 (mulf : (⟨S1600000x3, .f32⟩ : BufTy).Contents (Elt F) → (⟨S1600000x3, .f32⟩ : BufTy).Contents (Elt F) → (⟨S1600000x3, .f32⟩ : BufTy).Contents (Elt F)),
    StableHlo.unary main_v146 main_v150 ((extractStridedSlice S1600000x1 ![0, 1] · slices_S1600000x2_S1600000x1_0_1) : (⟨S1600000x2, .f32⟩ : BufTy).Contents (Elt F) → (⟨S1600000x1, .f32⟩ : BufTy).Contents (Elt F)),
    StableHlo.unary main_v150 main_v151 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v151 main_arg1 main_v152 (mulf : (⟨S1600000x3, .f32⟩ : BufTy).Contents (Elt F) → (⟨S1600000x3, .f32⟩ : BufTy).Contents (Elt F) → (⟨S1600000x3, .f32⟩ : BufTy).Contents (Elt F)),
    StableHlo.unary main_v5 main_v153 (broadcastInDim S1600000x3 ![0, 1] bcast_S1600000x1_S1600000x3_0_1 : (⟨S1600000x1, .f32⟩ : BufTy).Contents (Elt F) → (⟨S1600000x3, .f32⟩ : BufTy).Contents (Elt F)),
    StableHlo.binary main_v152 main_v153 main_v154 (mulf : (⟨S1600000x3, .f32⟩ : BufTy).Contents (Elt F) → (⟨S1600000x3, .f32⟩ : BufTy).Contents (Elt F) → (⟨S1600000x3, .f32⟩ : BufTy).Contents (Elt F)),
    StableHlo.binary main_v149 main_v154 main_v155 (addf : (⟨S1600000x3, .f32⟩ : BufTy).Contents (Elt F) → (⟨S1600000x3, .f32⟩ : BufTy).Contents (Elt F) → (⟨S1600000x3, .f32⟩ : BufTy).Contents (Elt F)),
    StableHlo.nullary main_cst_4 (constant S_ .f32 0x00000000#32),
    StableHlo.unary main_cst_4 main_v156 (broadcastInDim S50000x3 ![] bcast_S_S50000x3 : (⟨S_, .f32⟩ : BufTy).Contents (Elt F) → (⟨S50000x3, .f32⟩ : BufTy).Contents (Elt F)),
    StableHlo.unary main_v1 main_v157 (broadcastInDim S1600000x1 ![0] bcast_S1600000_S1600000x1_0 : (⟨S1600000, .i32⟩ : BufTy).Contents (Elt F) → (⟨S1600000x1, .i32⟩ : BufTy).Contents (Elt F)),
    StableHlo.ternary main_v156 main_v157 main_v155 main_v158 ((fun x i u => Host.scatterAdd scatter_S50000x3_S1600000x1_S1600000x3_1_0_0_1 x i u) : (⟨S50000x3, .f32⟩ : BufTy).Contents (Elt F) → (⟨S1600000x1, .i32⟩ : BufTy).Contents (Elt F) → (⟨S1600000x3, .f32⟩ : BufTy).Contents (Elt F) → (⟨S50000x3, .f32⟩ : BufTy).Contents (Elt F)),
    StableHlo.nullary main_v159 (iotaInDim S50000 32 0),
    StableHlo.nullary main_c (constantI S_ 32 3125#32),
    StableHlo.unary main_c main_call9_v0 (id : (⟨S_, .i32⟩ : BufTy).Contents (Elt F) → (⟨S_, .i32⟩ : BufTy).Contents (Elt F)),
    StableHlo.unary main_call9_v0 main_call9_v1 (broadcastInDim S50000 ![] bcast_S_S50000 : (⟨S_, .i32⟩ : BufTy).Contents (Elt F) → (⟨S50000, .i32⟩ : BufTy).Contents (Elt F)),
    StableHlo.binary main_v159 main_call9_v1 main_call9_v2 (Host.divsi : (⟨S50000, .i32⟩ : BufTy).Contents (Elt F) → (⟨S50000, .i32⟩ : BufTy).Contents (Elt F) → (⟨S50000, .i32⟩ : BufTy).Contents (Elt F)),
    StableHlo.unary main_v159 main_call9_v3 (signi : (⟨S50000, .i32⟩ : BufTy).Contents (Elt F) → (⟨S50000, .i32⟩ : BufTy).Contents (Elt F)),
    StableHlo.unary main_call9_v0 main_call9_v4 (signi : (⟨S_, .i32⟩ : BufTy).Contents (Elt F) → (⟨S_, .i32⟩ : BufTy).Contents (Elt F)),
    StableHlo.unary main_call9_v4 main_call9_v5 (broadcastInDim S50000 ![] bcast_S_S50000 : (⟨S_, .i32⟩ : BufTy).Contents (Elt F) → (⟨S50000, .i32⟩ : BufTy).Contents (Elt F)),
    StableHlo.binary main_call9_v3 main_call9_v5 main_call9_v6 (cmpi .ne : (⟨S50000, .i32⟩ : BufTy).Contents (Elt F) → (⟨S50000, .i32⟩ : BufTy).Contents (Elt F) → (⟨S50000, .i1⟩ : BufTy).Contents (Elt F)),
    StableHlo.unary main_call9_v0 main_call9_v7 (broadcastInDim S50000 ![] bcast_S_S50000 : (⟨S_, .i32⟩ : BufTy).Contents (Elt F) → (⟨S50000, .i32⟩ : BufTy).Contents (Elt F)),
    StableHlo.binary main_v159 main_call9_v7 main_call9_v8 (Host.remsi : (⟨S50000, .i32⟩ : BufTy).Contents (Elt F) → (⟨S50000, .i32⟩ : BufTy).Contents (Elt F) → (⟨S50000, .i32⟩ : BufTy).Contents (Elt F)),
    StableHlo.nullary main_call9_c (constantI S_ 32 0#32),
    StableHlo.unary main_call9_c main_call9_v9 (broadcastInDim S50000 ![] bcast_S_S50000 : (⟨S_, .i32⟩ : BufTy).Contents (Elt F) → (⟨S50000, .i32⟩ : BufTy).Contents (Elt F)),
    StableHlo.binary main_call9_v8 main_call9_v9 main_call9_v10 (cmpi .ne : (⟨S50000, .i32⟩ : BufTy).Contents (Elt F) → (⟨S50000, .i32⟩ : BufTy).Contents (Elt F) → (⟨S50000, .i1⟩ : BufTy).Contents (Elt F)),
    StableHlo.binary main_call9_v6 main_call9_v10 main_call9_v11 (andi : (⟨S50000, .i1⟩ : BufTy).Contents (Elt F) → (⟨S50000, .i1⟩ : BufTy).Contents (Elt F) → (⟨S50000, .i1⟩ : BufTy).Contents (Elt F)),
    StableHlo.nullary main_call9_c_0 (constantI S_ 32 1#32),
    StableHlo.unary main_call9_c_0 main_call9_v12 (broadcastInDim S50000 ![] bcast_S_S50000 : (⟨S_, .i32⟩ : BufTy).Contents (Elt F) → (⟨S50000, .i32⟩ : BufTy).Contents (Elt F)),
    StableHlo.binary main_call9_v2 main_call9_v12 main_call9_v13 (subi : (⟨S50000, .i32⟩ : BufTy).Contents (Elt F) → (⟨S50000, .i32⟩ : BufTy).Contents (Elt F) → (⟨S50000, .i32⟩ : BufTy).Contents (Elt F)),
    StableHlo.ternary main_call9_v11 main_call9_v13 main_call9_v2 main_v160 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.nullary main_c_5 (constantI S_ 32 15#32),
    StableHlo.unary main_c_5 main_v161 (broadcastInDim S50000 ![] bcast_S_S50000 : (⟨S_, .i32⟩ : BufTy).Contents (Elt F) → (⟨S50000, .i32⟩ : BufTy).Contents (Elt F)),
    StableHlo.binary main_v160 main_v161 main_v162 (minsi : (⟨S50000, .i32⟩ : BufTy).Contents (Elt F) → (⟨S50000, .i32⟩ : BufTy).Contents (Elt F) → (⟨S50000, .i32⟩ : BufTy).Contents (Elt F)),
    StableHlo.nullary main_cst_6 (constant S_ .f32 0x00000000#32),
    StableHlo.unary main_cst_6 main_v163 (broadcastInDim S16x3 ![] bcast_S_S16x3 : (⟨S_, .f32⟩ : BufTy).Contents (Elt F) → (⟨S16x3, .f32⟩ : BufTy).Contents (Elt F)),
    StableHlo.unary main_v162 main_v164 (broadcastInDim S50000x1 ![0] bcast_S50000_S50000x1_0 : (⟨S50000, .i32⟩ : BufTy).Contents (Elt F) → (⟨S50000x1, .i32⟩ : BufTy).Contents (Elt F)),
    StableHlo.ternary main_v163 main_v164 main_v158 main_v165 ((fun x i u => Host.scatterAdd scatter_S16x3_S50000x1_S50000x3_1_0_0_1 x i u) : (⟨S16x3, .f32⟩ : BufTy).Contents (Elt F) → (⟨S50000x1, .i32⟩ : BufTy).Contents (Elt F) → (⟨S50000x3, .f32⟩ : BufTy).Contents (Elt F) → (⟨S16x3, .f32⟩ : BufTy).Contents (Elt F)) ]

/-- The references those operations write, in order. -/
abbrev written2 : List (Ref sig .tc) :=
  [ main_v116, main_v117, main_cst_3, main_v118, main_v119, main_v120, main_v121, main_v122,
    main_v123, main_v124, main_v125, main_v126, main_v127, main_v128, main_call7_cst, main_call7_v0,
    main_v129, main_v130, main_v131, main_v132, main_v133, main_v134, main_v135, main_v136,
    main_v137, main_call8_cst, main_call8_v0, main_v138, main_v139, main_v140, main_v141, main_v142,
    main_v143, main_v144, main_v145, main_v146, main_v147, main_v148, main_v149, main_v150,
    main_v151, main_v152, main_v153, main_v154, main_v155, main_cst_4, main_v156, main_v157,
    main_v158, main_v159, main_c, main_call9_v0, main_call9_v1, main_call9_v2, main_call9_v3, main_call9_v4,
    main_call9_v5, main_call9_v6, main_call9_v7, main_call9_v8, main_call9_c, main_call9_v9, main_call9_v10, main_call9_v11,
    main_call9_c_0, main_call9_v12, main_call9_v13, main_v160, main_c_5, main_v161, main_v162, main_cst_6,
    main_v163, main_v164, main_v165 ]

theorem ops2_sub : (ops2 : List (HloOp τ sig (Elt F))).Forall fun op => op.bufs ⊆ tcRefs τ sig :=
  ⟨binary_bufs_sub .., binary_bufs_sub .., nullary_bufs_sub .., unary_bufs_sub .., unary_bufs_sub .., ternary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., binary_bufs_sub .., binary_bufs_sub .., nullary_bufs_sub .., unary_bufs_sub .., unary_bufs_sub ..,
    ternary_bufs_sub .., nullary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., unary_bufs_sub .., ternary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem ops2_writes : (ops2 : List (HloOp τ sig (Elt F))).Forall fun op =>
    op.writes ⊆ ((written2).map (Proc.devRef (τ := τ) .tc)).toFinset :=
  ⟨wsub main_v116 (by decide), wsub main_v117 (by decide), wsub main_cst_3 (by decide), wsub main_v118 (by decide),
    wsub main_v119 (by decide), wsub main_v120 (by decide), wsub main_v121 (by decide), wsub main_v122 (by decide),
    wsub main_v123 (by decide), wsub main_v124 (by decide), wsub main_v125 (by decide), wsub main_v126 (by decide),
    wsub main_v127 (by decide), wsub main_v128 (by decide), wsub main_call7_cst (by decide), wsub main_call7_v0 (by decide),
    wsub main_v129 (by decide), wsub main_v130 (by decide), wsub main_v131 (by decide), wsub main_v132 (by decide),
    wsub main_v133 (by decide), wsub main_v134 (by decide), wsub main_v135 (by decide), wsub main_v136 (by decide),
    wsub main_v137 (by decide), wsub main_call8_cst (by decide), wsub main_call8_v0 (by decide), wsub main_v138 (by decide),
    wsub main_v139 (by decide), wsub main_v140 (by decide), wsub main_v141 (by decide), wsub main_v142 (by decide),
    wsub main_v143 (by decide), wsub main_v144 (by decide), wsub main_v145 (by decide), wsub main_v146 (by decide),
    wsub main_v147 (by decide), wsub main_v148 (by decide), wsub main_v149 (by decide), wsub main_v150 (by decide),
    wsub main_v151 (by decide), wsub main_v152 (by decide), wsub main_v153 (by decide), wsub main_v154 (by decide),
    wsub main_v155 (by decide), wsub main_cst_4 (by decide), wsub main_v156 (by decide), wsub main_v157 (by decide),
    wsub main_v158 (by decide), wsub main_v159 (by decide), wsub main_c (by decide), wsub main_call9_v0 (by decide),
    wsub main_call9_v1 (by decide), wsub main_call9_v2 (by decide), wsub main_call9_v3 (by decide), wsub main_call9_v4 (by decide),
    wsub main_call9_v5 (by decide), wsub main_call9_v6 (by decide), wsub main_call9_v7 (by decide), wsub main_call9_v8 (by decide),
    wsub main_call9_c (by decide), wsub main_call9_v9 (by decide), wsub main_call9_v10 (by decide), wsub main_call9_v11 (by decide),
    wsub main_call9_c_0 (by decide), wsub main_call9_v12 (by decide), wsub main_call9_v13 (by decide), wsub main_v160 (by decide),
    wsub main_c_5 (by decide), wsub main_v161 (by decide), wsub main_v162 (by decide), wsub main_cst_6 (by decide),
    wsub main_v163 (by decide), wsub main_v164 (by decide), wsub main_v165 (by decide)⟩

/-! ## Each window is the run of its list

The outlined functions unfolded at their calls, both sides are one chain of operation steps once the sequencing is
reassociated. -/

set_option maxRecDepth 4096 in
theorem part0_eq (c : Dev nD) : main_part0 (F := F) c = seq ops0 := by
  simp only [main_part0, fn_norm.body, fn_relu.body, seq, bind_assoc, pure_bind]
  rfl

set_option maxRecDepth 4096 in
theorem part1_eq (c : Dev nD) : main_part1 (F := F) c = seq ops1 := by
  simp only [main_part1, fn_relu.body, seq, bind_assoc, pure_bind]
  rfl

set_option maxRecDepth 4096 in
theorem part2_eq (c : Dev nD) : main_part2 (F := F) c = seq ops2 := by
  simp only [main_part2, fn_relu.body, fn_floor_divide.body, fn_where.body, seq, bind_assoc, pure_bind]
  rfl

/-- All the operations of the program, in order. -/
abbrev ops : List (HloOp τ sig (Elt F)) := ops0 ++ (ops1 ++ ops2)

/-- The program is the run of all its operations: the three windows in order, each the run of its list. -/
theorem main_eq (c : Dev nD) : main (F := F) c = seq ops := by
  have h : main (F := F) c = (main_part0 c >>= fun _ => (main_part1 c >>= fun _ => main_part2 c)) := rfl
  rw [h, part0_eq, part1_eq, part2_eq, ← seq_append, ← seq_append]

theorem ops_sub : (ops : List (HloOp τ sig (Elt F))).Forall fun op => op.bufs ⊆ tcRefs τ sig :=
  List.forall_append.mpr ⟨ops0_sub, List.forall_append.mpr ⟨ops1_sub, ops2_sub⟩⟩

theorem ops_fresh : ∀ op ∈ (ops : List (HloOp τ sig (Elt F))), op.fresh = ∅ :=
  List.forall_iff_forall_mem.mp (List.forall_append.mpr ⟨ops0_fresh, List.forall_append.mpr ⟨ops1_fresh, ops2_fresh⟩⟩)

/-! ## A reference no operation of a window writes keeps its contents across it -/

theorem keep0 (V : Valuation τ sig (Elt F)) {r : Ref sig .tc} (hr : r ∉ written0) :
    after ops0 V (Proc.devRef .tc r) = V (Proc.devRef .tc r) := after_of_writes_sub ops0 V ops0_writes hr
theorem keep1 (V : Valuation τ sig (Elt F)) {r : Ref sig .tc} (hr : r ∉ written1) :
    after ops1 V (Proc.devRef .tc r) = V (Proc.devRef .tc r) := after_of_writes_sub ops1 V ops1_writes hr
theorem keep2 (V : Valuation τ sig (Elt F)) {r : Ref sig .tc} (hr : r ∉ written2) :
    after ops2 V (Proc.devRef .tc r) = V (Proc.devRef .tc r) := after_of_writes_sub ops2 V ops2_writes hr

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.HandRun

end
-- ==== Proof.RefRun.lean ====
/-
  The run of the reference program: from any memory with zero counters, every weakly fair execution terminates
  with the result buffer holding the reference's term of the argument arrays, and the ten arguments unchanged.

  The program is the run of its operations in order (three windows). Only the last of the four layers reaches
  the result. The first window leaves three things the last window reads: the target row of the edge index (a
  slice and a reshape), the edge lengths (the square root of the row sums of the squares) and the ratio
  length / (length + eps). The second window writes none of these, nor any argument. The last window computes the
  last layer's messages from them and the argument arrays, sums the messages into their target nodes and the nodes
  into their groups (the node number divided by 3125, rounded down, capped at 15).
-/
import proofs.«157294_j1838246003277_1_alg».proof.Proof.RefOps
import proofs.«157294_j1838246003277_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The first window: the target row, the lengths and the ratio

Each is read off the first window's operations: the result of every operation at its own buffer is its function
of its operands' contents, every other operation leaves the buffer alone. -/

theorem targets_eq (V : Valuation τ sig (Elt Ideal)) :
    after ops0 V (Proc.devRef .tc main_v1) = RefTerm.targets (V (Proc.devRef .tc main_arg8)) := by
  after_results_simp
  unfold RefTerm.targets
  rfl

theorem lengths_eq (V : Valuation τ sig (Elt Ideal)) :
    after ops0 V (Proc.devRef .tc main_v2) = RefTerm.lengths (V (Proc.devRef .tc main_arg1)) := by
  after_results_simp
  unfold RefTerm.lengths
  rfl

theorem ratios_eq (V : Valuation τ sig (Elt Ideal)) :
    after ops0 V (Proc.devRef .tc main_v5) = RefTerm.ratios (V (Proc.devRef .tc main_arg1)) := by
  after_results_simp
  unfold RefTerm.ratios RefTerm.lengths
  rfl

/-! ## The last window: the result from the lengths, the ratio, the target row and the arguments

The last window's operations at the result buffer compose to the last layer's messages (the parameter rows cut out
of the stacked arrays, the two rectified affine layers over the lengths, the coefficients, the combination with the
ratio), summed into the target nodes, summed into the node groups. The lengths, the ratio and the target row are
read from the buffers the first window left them in. -/

theorem out_of_last (W : Valuation τ sig (Elt Ideal))
    (h1 : W (Proc.devRef .tc main_v1) = RefTerm.targets (W (Proc.devRef .tc main_arg8)))
    (h2 : W (Proc.devRef .tc main_v2) = RefTerm.lengths (W (Proc.devRef .tc main_arg1)))
    (h5 : W (Proc.devRef .tc main_v5) = RefTerm.ratios (W (Proc.devRef .tc main_arg1))) :
    after ops2 W (Proc.devRef .tc main_v165)
      = RefTerm.out (W (Proc.devRef .tc main_arg1)) (W (Proc.devRef .tc main_arg2)) (W (Proc.devRef .tc main_arg3)) (W (Proc.devRef .tc main_arg4))
          (W (Proc.devRef .tc main_arg5)) (W (Proc.devRef .tc main_arg6)) (W (Proc.devRef .tc main_arg7)) (W (Proc.devRef .tc main_arg8)) := by
  after_results_simp
  rw [h1, h2, h5]
  unfold RefTerm.out RefTerm.pool RefTerm.layer3 RefTerm.layerMsg RefTerm.combine RefTerm.coefs RefTerm.hid2 RefTerm.hid1
    RefTerm.relu64 RefTerm.w1L RefTerm.b1L RefTerm.w2L RefTerm.b2L RefTerm.w3L RefTerm.b3L RefTerm.groups
  rfl

/-! ## The whole line -/

/-- A reference none of the three windows writes keeps its contents across the program. -/
theorem kept (V : Valuation τ sig (Elt Ideal)) {r : Ref sig .tc} (h0 : r ∉ written0) (h1 : r ∉ written1) (h2 : r ∉ written2) :
    after ops V (Proc.devRef .tc r) = V (Proc.devRef .tc r) := by
  rw [show (ops : List (HloOp τ sig (Elt Ideal))) = ops0 ++ (ops1 ++ ops2) from rfl, after_app, after_app,
    keep2 _ h2, keep1 _ h1, keep0 _ h0]

/-- The result buffer after the whole program: the first window leaves the target row, the lengths and the ratio,
    the second window touches none of them nor any argument, and the last window computes the result from them. -/
theorem out_eq (V : Valuation τ sig (Elt Ideal)) :
    after ops V (Proc.devRef .tc main_v165)
      = RefTerm.out (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [show (ops : List (HloOp τ sig (Elt Ideal))) = ops0 ++ (ops1 ++ ops2) from rfl, after_app, after_app]
  have a (r : Ref sig .tc) (h0 : r ∉ written0) (h1 : r ∉ written1) :
      after ops1 (after ops0 V) (Proc.devRef .tc r) = V (Proc.devRef .tc r) := (keep1 _ h1).trans (keep0 _ h0)
  have a1 := a main_arg1 (by decide) (by decide)
  have a2 := a main_arg2 (by decide) (by decide)
  have a3 := a main_arg3 (by decide) (by decide)
  have a4 := a main_arg4 (by decide) (by decide)
  have a5 := a main_arg5 (by decide) (by decide)
  have a6 := a main_arg6 (by decide) (by decide)
  have a7 := a main_arg7 (by decide) (by decide)
  have a8 := a main_arg8 (by decide) (by decide)
  have h1 : after ops1 (after ops0 V) (Proc.devRef .tc main_v1)
      = RefTerm.targets (after ops1 (after ops0 V) (Proc.devRef .tc main_arg8)) := by
    rw [keep1 _ (by decide), targets_eq, a8]
  have h2 : after ops1 (after ops0 V) (Proc.devRef .tc main_v2)
      = RefTerm.lengths (after ops1 (after ops0 V) (Proc.devRef .tc main_arg1)) := by
    rw [keep1 _ (by decide), lengths_eq, a1]
  have h5 : after ops1 (after ops0 V) (Proc.devRef .tc main_v5)
      = RefTerm.ratios (after ops1 (after ops0 V) (Proc.devRef .tc main_arg1)) := by
    rw [keep1 _ (by decide), ratios_eq, a1]
  rw [out_of_last _ h1 h2 h5, a1, a2, a3, a4, a5, a6, a7, a8]

/-- From any memory with zero counters every weakly fair execution of the reference terminates with the result
    buffer at the reference's term of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v165)
          = RefTerm.out (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨(h c main_v165).trans (out_eq (launchContents m c)),
      (h c main_arg0).trans (kept (launchContents m c) (by decide) (by decide) (by decide)),
      (h c main_arg1).trans (kept (launchContents m c) (by decide) (by decide) (by decide)),
      (h c main_arg2).trans (kept (launchContents m c) (by decide) (by decide) (by decide)),
      (h c main_arg3).trans (kept (launchContents m c) (by decide) (by decide) (by decide)),
      (h c main_arg4).trans (kept (launchContents m c) (by decide) (by decide) (by decide)),
      (h c main_arg5).trans (kept (launchContents m c) (by decide) (by decide) (by decide)),
      (h c main_arg6).trans (kept (launchContents m c) (by decide) (by decide) (by decide)),
      (h c main_arg7).trans (kept (launchContents m c) (by decide) (by decide) (by decide)),
      (h c main_arg8).trans (kept (launchContents m c) (by decide) (by decide) (by decide)),
      (h c main_arg9).trans (kept (launchContents m c) (by decide) (by decide) (by decide))⟩)
    (run_seq scopedRefs_eq scopedSems_eq (defs (F := Ideal)) (main (F := Ideal)) (fun _ => ops) main_eq (fun _ => ops_sub) m ρ
      (fun _ => ops_fresh))

end Cert.ReferenceIdeal.HandRun
end
-- ==== Proof.RefValue.lean ====
/-
  The reference's last-layer messages read index by index. Every array of the reference's message term is read at a
  pair of coordinates `(e, j)`: the row sum of squares over the three coordinates, its square root, the quotient
  length / (length + eps), the three products (each a sum over the one contracted coordinate, of extent 1, 64 and 64),
  the bias rows, the rectifiers, and the two coefficient columns spread over the three coordinates. Read so, entry
  `(e, d)` of the reference's messages is the specification's message of row `e` at `d`: both sides are the same
  expression of the row and the parameters, so no finiteness is used.
-/
import proofs.«157294_j1838246003277_1_alg».proof.Proof.Spec
import proofs.«157294_j1838246003277_1_alg».proof.Proof.RefTerm
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## The host's pointwise operations and layout operations at an index -/

section Generic
variable {s : Shape} {φ : FTy}

/-- The host's square root at an index is the square root of the element. -/
theorem hostSqrt_apply (a : FVec Ideal s φ) (i : s.Idx) : Host.sqrt a i = Ideal.sqrt (a i) := rfl
/-- The host's quotient at an index is the quotient of the elements. -/
theorem hostDivf_apply (a b : FVec Ideal s φ) (i : s.Idx) : Host.divf a b i = Ideal.div (a i) (b i) := rfl

/-- A vector of length `E` placed as the column `[E, 1]` reads, at `(e, 0)`, the vector at `e`. -/
theorem column_apply {α : Type} {E : Nat} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) := by
  refine broadcastInDim_apply _ h x (ix2 e (0 : Fin 1)) (ix1 e) fun a => ?_
  match a with
  | ⟨0, _⟩ =>
    show e.val = if E = 1 then 0 else e.val
    split
    · have := e.isLt; omega
    · rfl

/-- A column `[E, 1]` repeated along `n` coordinates reads, at `(e, d)`, the column at `(e, 0)`. -/
theorem spread_apply {α : Type} {E n : Nat} (h : (⟨2, ![E, 1]⟩ : Shape).BroadcastsInDim ⟨2, ![E, n]⟩ ![0, 1])
    (x : (⟨2, ![E, 1]⟩ : Shape).Idx → α) (e : Fin E) (d : Fin n) :
    broadcastInDim ⟨2, ![E, n]⟩ ![0, 1] h x (ix2 e d) = x (ix2 e (0 : Fin 1)) := by
  refine broadcastInDim_apply _ h x (ix2 e d) (ix2 e (0 : Fin 1)) fun a => ?_
  match a with
  | ⟨0, _⟩ =>
    show e.val = if E = 1 then 0 else e.val
    split
    · have := e.isLt; omega
    · rfl
  | ⟨1, _⟩ => rfl

/-- A vector of length `n` placed as the row `[1, n]` and repeated over `E` rows reads, at `(e, j)`, the vector at `j`. -/
theorem biasRows_apply {α : Type} {E n : Nat} (h1 : (⟨1, ![n]⟩ : Shape).BroadcastsInDim ⟨2, ![1, n]⟩ ![1])
    (h2 : (⟨2, ![1, n]⟩ : Shape).BroadcastsInDim ⟨2, ![E, n]⟩ ![0, 1])
    (b : (⟨1, ![n]⟩ : Shape).Idx → α) (e : Fin E) (j : Fin n) :
    broadcastInDim ⟨2, ![E, n]⟩ ![0, 1] h2 (broadcastInDim ⟨2, ![1, n]⟩ ![1] h1 b) (ix2 e j) = b (ix1 j) := by
  refine (broadcastInDim_apply _ h2 _ (ix2 e j) (ix2 (0 : Fin 1) j) fun a => ?_).trans
    (broadcastInDim_apply _ h1 b (ix2 (0 : Fin 1) j) (ix1 j) fun a => ?_)
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- The product of an `m × k` by a `k × n` array (contracting the first's columns with the second's rows, no batch
    axis), read at `(a, b)`, is the sum over the contracted coordinate of the products of the entries. -/
theorem dot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Generic

/-! ## The reference's arrays, index by index -/

/-- The rectifier at an index: the maximum of the element and the zero word's value. -/
theorem relu64_apply (x : FVec Ideal S1600000x64 .f32) (i : S1600000x64.Idx) :
    RefTerm.relu64 x i = max (x i) Cert.EdgeMlp.zeroW := rfl

/-- The sum over the three coordinates of a row: the host's sum over axis 1 from the zero word. -/
theorem rowSum_apply (x : FVec Ideal S1600000x3 .f32) (e : Fin 1600000) :
    Host.reduceAdd x (constant (F := Ideal) S_ .f32 0x00000000#32) reducesTo_S1600000x3_S1600000_d1 h_S_ (ix1 e)
      = ∑ k : Fin 3, x (ix2 e k) := by
  have hR : S1600000x3.Reduces [1] S1600000 := by decide
  show Ideal.hostReduceAdd reducesTo_S1600000x3_S1600000_d1 x (Ideal.ofBits .f32 0x00000000#32) (ix1 e) = _
  refine (Ideal.hostReduceAdd_single reducesTo_S1600000x3_S1600000_d1 hR x _ (ix1 e)).trans ?_
  rw [Ideal.ofBits_zero_f32, zero_add]
  refine Finset.sum_congr rfl fun k _ => congrArg x ?_
  funext c; apply Fin.ext
  match c with
  | ⟨0, _⟩ => rfl
  | ⟨1, _⟩ => rfl

/-- The length column at `(e, 0)` is the length of row `e`: the square root of the sum of its squares. -/
theorem lengths_apply (a1 : FVec Ideal S1600000x3 .f32) (e : Fin 1600000) :
    RefTerm.lengths a1 (ix2 e (0 : Fin 1)) = Cert.EdgeMlp.radius (fun k => a1 (ix2 e k)) := by
  unfold RefTerm.lengths Cert.EdgeMlp.radius
  rw [hostSqrt_apply]
  refine congrArg Ideal.sqrt ?_
  refine (column_apply bcast_S1600000_S1600000x1_0 _ e).trans ?_
  exact rowSum_apply (mulf a1 a1) e

/-- The ratio column at `(e, 0)` is length / (length + eps) of row `e`. -/
theorem ratios_apply (a1 : FVec Ideal S1600000x3 .f32) (e : Fin 1600000) :
    RefTerm.ratios a1 (ix2 e (0 : Fin 1)) = Cert.EdgeMlp.ratio (fun k => a1 (ix2 e k)) := by
  unfold RefTerm.ratios Cert.EdgeMlp.ratio
  rw [hostDivf_apply, addf_apply, lengths_apply]
  rfl

/-- The first hidden layer at `(e, j)`: the contraction runs over one coordinate, so the product is the length times
    the weight. -/
theorem hid1_apply (a1 : FVec Ideal S1600000x3 .f32) (w1 : FVec Ideal S1x64 .f32) (b1 : FVec Ideal S64 .f32)
    (e : Fin 1600000) (j : Fin 64) :
    RefTerm.hid1 a1 w1 b1 (ix2 e j) = Cert.EdgeMlp.hidden1 (fun k => a1 (ix2 e k)) w1 b1 j := by
  unfold RefTerm.hid1 Cert.EdgeMlp.hidden1
  rw [relu64_apply, addf_apply, biasRows_apply bcast_S64_S1x64_1 bcast_S1x64_S1600000x64_0_1 b1 e j]
  refine congrArg (fun t => max (t + b1 (ix1 j)) Cert.EdgeMlp.zeroW) ?_
  refine (dot_apply dot_S1600000x1_S1x64_S1600000x64_1_0_0_1_n_n_wf none (RefTerm.lengths a1) w1 e j).trans ?_
  rw [Fin.sum_univ_one, lengths_apply]

/-- The second hidden layer at `(e, j)`: row `e` of the first times column `j` of the matrix, plus the bias, rectified. -/
theorem hid2_apply (h1 : FVec Ideal S1600000x64 .f32) (w2 : FVec Ideal S64x64 .f32) (b2 : FVec Ideal S64 .f32)
    (e : Fin 1600000) (j : Fin 64) :
    RefTerm.hid2 h1 w2 b2 (ix2 e j)
      = max ((∑ k : Fin 64, h1 (ix2 e k) * w2 (ix2 k j)) + b2 (ix1 j)) Cert.EdgeMlp.zeroW := by
  unfold RefTerm.hid2
  rw [relu64_apply, addf_apply, biasRows_apply bcast_S64_S1x64_1 bcast_S1x64_S1600000x64_0_1 b2 e j]
  refine congrArg (fun t => max (t + b2 (ix1 j)) Cert.EdgeMlp.zeroW) ?_
  exact dot_apply dot_S1600000x64_S64x64_S1600000x64_1_0_0_1_n_n_wf none h1 w2 e j

/-- The two coefficients at `(e, j)`: row `e` of the second hidden layer times column `j` of the matrix, plus the bias. -/
theorem coefs_apply (h2 : FVec Ideal S1600000x64 .f32) (w3 : FVec Ideal S64x2 .f32) (b3 : FVec Ideal S2 .f32)
    (e : Fin 1600000) (j : Fin 2) :
    RefTerm.coefs h2 w3 b3 (ix2 e j) = (∑ k : Fin 64, h2 (ix2 e k) * w3 (ix2 k j)) + b3 (ix1 j) := by
  unfold RefTerm.coefs
  rw [addf_apply, biasRows_apply bcast_S2_S1x2_1 bcast_S1x2_S1600000x2_0_1 b3 e j]
  refine congrArg (fun t => t + b3 (ix1 j)) ?_
  exact dot_apply dot_S1600000x64_S64x2_S1600000x2_1_0_0_1_n_n_wf none h2 w3 e j

/-- The combination at `(e, d)`: the two coefficient columns and the ratio column, each read in row `e`. -/
theorem combine_apply (a1 : FVec Ideal S1600000x3 .f32) (ab : FVec Ideal S1600000x2 .f32) (sc : FVec Ideal S1600000x1 .f32)
    (e : Fin 1600000) (d : Fin 3) :
    RefTerm.combine a1 ab sc (ix2 e d)
      = ab (ix2 e (0 : Fin 2)) * a1 (ix2 e d) + ab (ix2 e (1 : Fin 2)) * a1 (ix2 e d) * sc (ix2 e (0 : Fin 1)) := by
  unfold RefTerm.combine
  rw [addf_apply, mulf_apply, mulf_apply, mulf_apply,
    spread_apply bcast_S1600000x1_S1600000x3_0_1 _ e d, spread_apply bcast_S1600000x1_S1600000x3_0_1 _ e d,
    spread_apply bcast_S1600000x1_S1600000x3_0_1 sc e d,
    slice2_axis1_apply 0 ab slices_S1600000x2_S1600000x1_0_0 e (0 : Fin 1) (0 : Fin 2) rfl,
    slice2_axis1_apply 1 ab slices_S1600000x2_S1600000x1_0_1 e (0 : Fin 1) (1 : Fin 2) rfl]

/-- The reference's last-layer messages are the row-by-row messages of the specification. -/
theorem layerMsg_eq (a1 : FVec Ideal S1600000x3 .f32) (w1 : FVec Ideal S1x64 .f32) (b1 : FVec Ideal S64 .f32)
    (w2 : FVec Ideal S64x64 .f32) (b2 : FVec Ideal S64 .f32) (w3 : FVec Ideal S64x2 .f32) (b3 : FVec Ideal S2 .f32) :
    RefTerm.layerMsg a1 w1 b1 w2 b2 w3 b3 = Cert.EdgeMlp.msgRows a1 w1 b1 w2 b2 w3 b3 := by
  funext i
  obtain ⟨e, d, rfl⟩ : ∃ (e : Fin 1600000) (d : Fin 3), i = ix2 e d := ⟨i 0, i 1, eq_ix2 i⟩
  have hh2 : ∀ k : Fin 64, RefTerm.hid2 (RefTerm.hid1 a1 w1 b1) w2 b2 (ix2 e k)
      = Cert.EdgeMlp.hidden2 (fun k => a1 (ix2 e k)) w1 b1 w2 b2 k := fun k => by
    rw [hid2_apply]
    unfold Cert.EdgeMlp.hidden2
    refine congrArg (fun t => max (t + b2 (ix1 k)) Cert.EdgeMlp.zeroW) ?_
    exact Finset.sum_congr rfl fun c _ => by rw [hid1_apply]
  have hco : ∀ j : Fin 2, RefTerm.coefs (RefTerm.hid2 (RefTerm.hid1 a1 w1 b1) w2 b2) w3 b3 (ix2 e j)
      = Cert.EdgeMlp.coef (fun k => a1 (ix2 e k)) w1 b1 w2 b2 w3 b3 j := fun j => by
    rw [coefs_apply]
    unfold Cert.EdgeMlp.coef
    refine congrArg (fun t => t + b3 (ix1 j)) ?_
    exact Finset.sum_congr rfl fun c _ => by rw [hh2]
  rw [Cert.EdgeMlp.msgRows_ix2]
  unfold RefTerm.layerMsg Cert.EdgeMlp.rowMsg
  rw [combine_apply, hco, hco, ratios_apply]

end Cert.ReferenceIdeal.RefValue

end
-- ==== Proof.lean ====
/-
  The certificate of a message-passing network's edge kernel against its jnp reference, over the extended reals.

  Both programs compute, for every edge, a small radial network of the edge vector's length (two rectified affine
  layers of width 64 and two output coefficients a, b), the message a·x + (b·x)·(r / (r + eps)) of the edge vector x,
  then sum the messages into their target nodes and the nodes into sixteen groups of 3125 consecutive nodes. The
  reference runs four such layers but each overwrites the node sums of the one before, so only the fourth reaches the
  result; the kernel computes that fourth layer only, in one launch over 500 blocks of 3200 edges, with the two matrix
  products on operands narrowed to bf16 — the identity on extended reals.

  * the frames of the two kernel programs are the launch's generated frame run; the reference's is its run (written
    out operation by operation: an outlined floor division that calls an outlined select) with the result dropped;
  * nothing was rewritten by the idealization, so `preserves` is `True`;
  * `algebraic`: the kernel's message array after the launch is the edge network of every row (each point writes the
    rows it read, and the blocks tile the array), the reference's fourth-layer messages read index by index are the
    same network (a product contracting a unit axis is the plain product; a sum over an axis is the same sum on both
    sides), and both programs end with the same two sums of that array. No finiteness of the inputs is used.
-/
import proofs.«157294_j1838246003277_1_alg».proof.Defs
import proofs.«157294_j1838246003277_1_alg».proof.Proof.Gen.Kernel
import proofs.«157294_j1838246003277_1_alg».proof.Proof.Gen.Kernel.Frame
import proofs.«157294_j1838246003277_1_alg».proof.Proof.Gen.KernelIdeal
import proofs.«157294_j1838246003277_1_alg».proof.Proof.Gen.KernelIdeal.Frame
import proofs.«157294_j1838246003277_1_alg».proof.Proof.Gen.ReferenceIdeal
import proofs.«157294_j1838246003277_1_alg».proof.Proof.Gen.Pre_finite_inputs
import proofs.«157294_j1838246003277_1_alg».proof.Proof.KernelArray
import proofs.«157294_j1838246003277_1_alg».proof.Proof.KernelBlock
import proofs.«157294_j1838246003277_1_alg».proof.Proof.RefRun
import proofs.«157294_j1838246003277_1_alg».proof.Proof.RefValue

noncomputable section

namespace Cert.Proof.Claims

open Idealize.ShloMosaic Idealize.SL.Sem

/-- The word-level kernel program runs and leaves its arguments unchanged. -/
theorem frame_k : Cert.frame_Kernel := fun m ρ _ => Cert.Kernel.Gen.frame m ρ
/-- So does the kernel program read at the extended reals. -/
theorem frame_ki : Cert.frame_KernelIdeal := fun m ρ _ => Cert.KernelIdeal.Gen.frame m ρ
/-- The reference has no launch: its run, with the result dropped, is its frame. -/
theorem frame_ri : Cert.frame_ReferenceIdeal := fun m ρ _ =>
  (θ_run Cert.ReferenceIdeal.defs _ _).mono (fun _ h c => (h c).2) (Cert.ReferenceIdeal.HandRun.run m ρ)

/-- The idealization rewrote nothing, so there is nothing to preserve. -/
theorem preserves : Cert.preserves_Kernel_KernelIdeal := trivial

/-- At the extended reals both programs end at the same two sums (messages into target nodes, nodes into groups) of
    the same message array: the kernel's launch leaves the edge network of every row of the edge array under row 3
    of the stacked parameters, and the reference's surviving fourth layer is that network read index by index. -/
theorem algebraic : Cert.algebraic_KernelIdeal_ReferenceIdeal := by
  intro m ρ m' ρ' _ hagree
  refine ⟨_, Cert.KernelIdeal.KernelValue.run m ρ Cert.KernelIdeal.BlockValue.out_block_eq, ?_⟩
  refine (θ_run Cert.ReferenceIdeal.defs _ _).mono (fun _ h c => ⟨(h c).1.trans ?_, (h c).2⟩)
    (Cert.ReferenceIdeal.HandRun.run m' ρ')
  obtain ⟨-, h1, h2, h3, h4, h5, h6, h7, h8, -⟩ := hagree c
  rw [h1, h2, h3, h4, h5, h6, h7, h8]
  unfold Cert.ReferenceIdeal.RefTerm.out Cert.ReferenceIdeal.RefTerm.layer3
  rw [Cert.ReferenceIdeal.RefValue.layerMsg_eq]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
